-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x56x56x256 : Shape := ⟨4, ![64, 56, 56, 256]⟩
abbrev S_ : Shape := ⟨0, ![]⟩

class Facts : Prop where
  bcast_S_S64x56x56x256 : S_.BroadcastsInDim S64x56x56x256 (![] : Fin 0 → Fin S64x56x56x256.rank)
  reducesTo_S64x56x56x256_S_d0_1_2_3 : S64x56x56x256.ReducesTo [0, 1, 2, 3] S_
  h_S_ : 0 < S_.numel

variable [Facts]

def fn {F : FTy → Type} [FloatOps F] (main_arg0 : FVec F S64x56x56x256 .f32) : IVec S_ 1 :=
  let main_v0 : FVec F S64x56x56x256 .f32 := Host.absf main_arg0
  let main_cst : FVec F S_ .f32 := constant S_ .f32 0x7F800000#32
  let main_v1 : FVec F S64x56x56x256 .f32 := broadcastInDim S64x56x56x256 ![] bcast_S_S64x56x56x256 main_cst
  let main_v2 : IVec S64x56x56x256 1 := cmpf .olt main_v0 main_v1
  let main_c : IVec S_ 1 := constantI S_ 1 1#1
  let main_v3 : IVec S_ 1 := (fun x v => Host.reduce IntOp.andi x v reducesTo_S64x56x56x256_S_d0_1_2_3 h_S_) main_v2 main_c
  main_v3
-- ==== Kernel.lean ====
abbrev S64x56x56x256 : Shape := ⟨4, ![64, 56, 56, 256]⟩
abbrev S4x28x56x256 : Shape := ⟨4, ![4, 28, 56, 256]⟩
abbrev S28x56x256 : Shape := ⟨3, ![28, 56, 256]⟩
abbrev S1x28x56x256 : Shape := ⟨4, ![1, 28, 56, 256]⟩

abbrev nBuf : Space → Nat
  | .hbm => 2
  | .vmem => 5
  | .smem => 0
  | _ => 0

abbrev bufTy : (tb : Table) → Fin (tcTables nBuf tb) → BufTy
  | .hbm, ⟨0, _⟩ => ⟨S64x56x56x256, .f32⟩
  | .hbm, ⟨1, _⟩ => ⟨S64x56x56x256, .f32⟩
  | .local _ .vmem, ⟨0, _⟩ => ⟨S4x28x56x256, .f32⟩
  | .local _ .vmem, ⟨1, _⟩ => ⟨S4x28x56x256, .f32⟩
  | .local _ .vmem, ⟨2, _⟩ => ⟨S4x28x56x256, .f32⟩
  | .local _ .vmem, ⟨3, _⟩ => ⟨S4x28x56x256, .f32⟩
  | .local _ .vmem, ⟨4, _⟩ => ⟨S28x56x256, .f32⟩
  | _, _ => ⟨S64x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x28x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x28x56x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S4x28x56x256_S1x28x56x256_0_0_0_0 : ∀ a, (![0, 0, 0, 0] : Fin 4 → Nat) a + S1x28x56x256.size a ≤ S4x28x56x256.size a
  h_S1x28x56x256 : 0 < S1x28x56x256.numel
  shapeCasts_S1x28x56x256_S28x56x256 : S1x28x56x256.ShapeCasts S28x56x256
  inb_S28x56x256_S28x56x256_0_0_0 : ∀ a, (![0, 0, 0] : Fin 3 → Nat) a + S28x56x256.size a ≤ S28x56x256.size a
  h_S28x56x256 : 0 < S28x56x256.numel
  shapeCasts_S28x56x256_S28x56x256 : S28x56x256.ShapeCasts S28x56x256
  shapeCasts_S28x56x256_S1x28x56x256 : S28x56x256.ShapeCasts S1x28x56x256
  inb_S4x28x56x256_S1x28x56x256_1_0_0_0 : ∀ a, (![1, 0, 0, 0] : Fin 4 → Nat) a + S1x28x56x256.size a ≤ S4x28x56x256.size a
  inb_S4x28x56x256_S1x28x56x256_2_0_0_0 : ∀ a, (![2, 0, 0, 0] : Fin 4 → Nat) a + S1x28x56x256.size a ≤ S4x28x56x256.size a
  inb_S4x28x56x256_S1x28x56x256_3_0_0_0 : ∀ a, (![3, 0, 0, 0] : Fin 4 → Nat) a + S1x28x56x256.size a ≤ S4x28x56x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x28x56x256.size a ≤ S64x56x56x256.size a
  hwx0_0 : ∀ i : grid0.Coords, EltTy.bits .f32 = 32 ∨ (Rect.block (s := S64x56x56x256) S4x28x56x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x28x56x256.size a ≤ S64x56x56x256.size a
  hwx0_1 : ∀ i : grid0.Coords, EltTy.bits .f32 = 32 ∨ (Rect.block (s := S64x56x56x256) S4x28x56x256.size (cc0_transform_1 i) (hinb0_1 i)).WholeWords (EltTy.packing .f32)

variable [Facts₀]

abbrev win0_0 : Pipeline.Window sig grid0 :=
  Pipeline.Window.ofSpec (Memref.whole main_arg0) S4x28x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x28x56x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x56x56x256 : Shape := ⟨4, ![64, 56, 56, 256]⟩
abbrev S64x56x256x56 : Shape := ⟨4, ![64, 56, 256, 56]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x56x56x256, .f32⟩
  | .hbm, ⟨1, _⟩ => ⟨S64x56x256x56, .f32⟩
  | .hbm, ⟨2, _⟩ => ⟨S_, .f32⟩
  | .hbm, ⟨3, _⟩ => ⟨S_, .f32⟩
  | .hbm, ⟨4, _⟩ => ⟨S64x56x256x56, .f32⟩
  | .hbm, ⟨5, _⟩ => ⟨S64x56x56x256, .f32⟩
  | _, _ => ⟨S64x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x56x56x256_S64x56x256x56_0_1_3_2 : S64x56x56x256.Transposes [0, 1, 3, 2] S64x56x256x56
  bcast_S_S_ : S_.BroadcastsInDim S_ (![] : Fin 0 → Fin S_.rank)
  reduceWindows_S64x56x256x56_S64x56x256x56_w64s1p63_0_w1s1p0_0_w1s1p0_0_w1s1p0_0 : S64x56x256x56.ReduceWindows (![64, 1, 1, 1] : Fin 4 → Nat) ![1, 1, 1, 1] ![63, 0, 0, 0] ![0, 0, 0, 0] S64x56x256x56
  h_S_ : 0 < S_.numel
  transposes_S64x56x256x56_S64x56x56x256_0_1_3_2 : S64x56x256x56.Transposes [0, 1, 3, 2] S64x56x56x256

variable [Facts₀]

class Facts : Prop extends Facts₀ where

variable [Facts]
-- ==== Proof.ScanCasesBits.lean ====
/-
  The scan kernel's body, point by point: which of its two branches a grid point takes, the buffers the body is handed,
  and the region invariant with the carry buffer named.

  The grid is 2 × 16: the outer coordinate picks a tile of 28 rows of the height axis, the inner one a block of 4
  consecutive slices of the leading axis. At the first block of a tile (inner coordinate 0) the body seeds its carry
  buffer with the block's first slice; at every later block it first folds the carry into the first slice. Both
  branches then run the same three steps over the remaining slices.
-/
import proofs.«106476_j6837587935356_2_alg».proof.Proof.Gen.Kernel.Frame
import proofs.«106476_j6837587935356_2_alg».proof.Proof.Gen.Kernel.Skeleton
import proofs.«106476_j6837587935356_2_alg».proof.Proof.Gen.Kernel.Launch
import proofs.«106476_j6837587935356_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- "This is the first block of its tile": the inner grid coordinate is zero (the scalar chain of the first `scf.if`). -/
abbrev isFirst (i : grid0.Coords) : Prop :=
  (Scalar.cmpi .ne (Scalar.extui (Scalar.cmpi .eq (BitVec.ofNat 32 (i 1).val) 0#32)) 0#32) = 1#1

/-- "This is a later block": the inner grid coordinate is not zero (the scalar chain of the second `scf.if`). -/
abbrev isLater (i : grid0.Coords) : Prop :=
  (Scalar.cmpi .ne (Scalar.extui (Scalar.cmpi .ne (BitVec.ofNat 32 (i 1).val) 0#32)) 0#32) = 1#1

/-- The points are numbered row-major, so the inner coordinate of point `t` is `t mod 16`. -/
theorem isFirst_iff : ∀ t : Fin cfg0.N, isFirst (grid0.coords t) ↔ t.val % 16 = 0 :=
  (by decide +kernel : ∀ t : Fin grid0.N, isFirst (grid0.coords t) ↔ t.val % 16 = 0)

theorem isLater_iff : ∀ t : Fin cfg0.N, isLater (grid0.coords t) ↔ t.val % 16 ≠ 0 :=
  (by decide +kernel : ∀ t : Fin grid0.N, isLater (grid0.coords t) ↔ t.val % 16 ≠ 0)

/-- Neither window is ever idle: the input is fetched and the output stored whole at every point. -/
theorem live_in : ∀ t : Fin cfg0.N, cfg0.idle 0 (grid0.coords t) = false := by decide +kernel
theorem live_out : ∀ t : Fin cfg0.N, cfg0.idle 1 (grid0.coords t) = false := by decide +kernel

/-! ## The buffers the body is handed at a point -/

/-- The input window's and the output window's current staging buffer at point `t`, and that each is a whole buffer. -/
abbrev inBuf (t : Fin cfg0.N) : Memref sig .tc .vmem S4x28x56x256 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S4x28x56x256 .f32 := win0_1.stage (cfg0.slots t 1)
abbrev outBuf_whole (t : Fin cfg0.N) : (outBuf t).IsWhole := hstage0_1 ((cfg0.slots t 1).cast nbuf0_1)
/-- The carry: the kernel's one scratch buffer, a tile of one slice. -/
abbrev carryBuf : Memref sig .tc .vmem S28x56x256 .f32 := Memref.whole cc0_scratch0
/-- Views through which a buffer's contents are stated (any whole buffer of the shape would do). -/
abbrev carryView : View sig .tc .vmem S28x56x256 .f32 := carryBuf.view
abbrev outView : View sig .tc .vmem S4x28x56x256 .f32 := (Memref.whole cc0_stg1_0 : Memref sig .tc .vmem S4x28x56x256 .f32).view

/-- The region's invariant as the launch hands it over: the carry buffer owned at some contents, and the generator
    register at some state. -/
theorem launchInv_eq (c : Dev nD) :
    (Pipeline.ΦA spec0 c : sProp 𝕄)
      = iprop(iprop((∃ d, owns (c : Thread nD τ) carryBuf fullShare d)) ∗ (∃ r, prngReg c r)) := by
  unfold Pipeline.ΦA; rw [scopedRest0_eq]; simp only [carryBuf, owns_whole]; try rfl

end Cert.Kernel.Scan

end
-- ==== Proof.ScanFirstBits.lean ====
/-
  The body at the FIRST block of a tile. The carry buffer is handed over at unknown contents (the body loads it once
  before overwriting it, and discards what it loaded); the output buffer at unknown contents too (each of its four
  slices is loaded, discarded, and stored). The run ends with the input buffer as it was, and the output and carry
  buffers each holding a list of written pieces, which the run itself finds.
-/
import proofs.«106476_j6837587935356_2_alg».proof.Proof.ScanCasesBits

set_option maxRecDepth 16384

noncomputable section

namespace Cert.Kernel.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a first block: from the input buffer at `x0`, the output and carry buffers at anything, to the
    continuation holding the input buffer at `x0` and the other two with their pieces written (last store first). -/
noncomputable def runFirst (c : Dev nD) (i : grid0.Coords) (arg2 : Memref sig .tc .vmem S4x28x56x256 .f32) (harg2 : arg2.IsWhole) (arg3 : Memref sig .tc .vmem S4x28x56x256 .f32) (harg3 : arg3.IsWhole) (arg4 : Memref sig .tc .vmem S28x56x256 .f32) (harg4 : arg4.IsWhole) (hc0 : isFirst i) (hc1 : ¬isLater i)
    (x0 : Vec F S4x28x56x256 .f32) :
    Σ' (L1 : List (View.Piece (Elt F) S4x28x56x256 .f32)), { LS0 : List (View.Piece (Elt F) S28x56x256 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__cummax_kernel i arg2 harg2 arg3 harg3 arg4 harg4) K } := by
  refine ⟨?_, ?_, fun E K => ?run⟩
  case run =>
    simp only [cc0__cummax_kernel_eq_skeleton]; unfold cc0__cummax_kernel_skel
    simp only [k0_part1_eq_skeleton]
    unfold owns
    iintro ⟨⟨%f0, %hf0, H0⟩, ⟨%d1, %f1, -, H1⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Scan

end
-- ==== Proof.ScanLaterBits.lean ====
/-
  The body at a LATER block of a tile. The carry buffer is handed over at the contents `xs0` the block before left in
  it, and the first slice is folded into it; the output buffer is at unknown contents. The run ends with the input buffer
  as it was, and the output and carry buffers each holding a list of written pieces, which the run itself finds.
-/
import proofs.«106476_j6837587935356_2_alg».proof.Proof.ScanFirstBits

set_option maxRecDepth 16384

noncomputable section

namespace Cert.Kernel.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a later block: from the input buffer at `x0`, the carry buffer at `xs0`, the output buffer at
    anything, to the continuation holding the input buffer at `x0` and the other two with their pieces written. -/
noncomputable def runLater (c : Dev nD) (i : grid0.Coords) (arg2 : Memref sig .tc .vmem S4x28x56x256 .f32) (harg2 : arg2.IsWhole) (arg3 : Memref sig .tc .vmem S4x28x56x256 .f32) (harg3 : arg3.IsWhole) (arg4 : Memref sig .tc .vmem S28x56x256 .f32) (harg4 : arg4.IsWhole) (hc0 : ¬isFirst i) (hc1 : isLater i)
    (x0 : Vec F S4x28x56x256 .f32) (xs0 : Vec F S28x56x256 .f32) :
    Σ' (L1 : List (View.Piece (Elt F) S4x28x56x256 .f32)), { LS0 : List (View.Piece (Elt F) S28x56x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__cummax_kernel i arg2 harg2 arg3 harg3 arg4 harg4) K } := by
  refine ⟨?_, ?_, fun E K => ?run⟩
  case run =>
    simp only [cc0__cummax_kernel_eq_skeleton]; unfold cc0__cummax_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Scan

end
-- ==== Proof.ScanFrameBits.lean ====
/-
  The scan kernel's frame: every weakly fair execution of the program terminates without a fault and leaves the
  argument array as it was.

  What each grid point leaves behind is defined by recursion on the point: the output block's four slices and the
  carry buffer. A first block of a tile depends on its input block alone; a later block also on the carry the block
  before left. The region's invariant names the carry buffer's contents from the second point on, which is what lets
  a later block's run be applied. Each point's obligation is then the run of the branch the point takes.
-/
import proofs.«106476_j6837587935356_2_alg».proof.Proof.ScanLaterBits

set_option maxRecDepth 16384

noncomputable section

namespace Cert.Kernel.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a list of written pieces leaves in a buffer -/

/-- The output buffer's contents after the writes `L` (read through one fixed view over junk: where the pieces cover
    the block the choice of view and of prior contents does not matter). -/
def outOf (L : List (View.Piece (Elt F) S4x28x56x256 .f32)) : Vec F S4x28x56x256 .f32 :=
  outView.read (Elt F) (outView.writes (Elt F) outView.junk L)

/-- The carry buffer's contents after the writes `L`. -/
def carryOf (L : List (View.Piece (Elt F) S28x56x256 .f32)) : Vec F S28x56x256 .f32 :=
  carryView.read (Elt F) (carryView.writes (Elt F) carryView.junk L)

/-! ## The two runs at a grid point -/

/-- The first-block run at point `t` (inner coordinate zero), on the point's buffers and input block. -/
def runFirstAt (c : Dev nD) (t : Fin cfg0.N) (h0 : t.val % 16 = 0) :=
  runFirst (F := F) c (grid0.coords t) (inBuf t) (inBuf_whole t) (outBuf t) (outBuf_whole t) carryBuf (Memref.isWhole_whole _)
    ((isFirst_iff t).mpr h0) (fun h => (isLater_iff t).mp h h0) (iblk m c 0 t)

/-- The later-block run at point `t` (inner coordinate not zero), from the carry `xs0`. -/
def runLaterAt (c : Dev nD) (t : Fin cfg0.N) (h0 : t.val % 16 ≠ 0) (xs0 : Vec F S28x56x256 .f32) :=
  runLater (F := F) c (grid0.coords t) (inBuf t) (inBuf_whole t) (outBuf t) (outBuf_whole t) carryBuf (Memref.isWhole_whole _)
    (fun h => h0 ((isFirst_iff t).mp h)) ((isLater_iff t).mpr h0) (iblk m c 0 t) xs0

/-- Either run's output pieces are four slices that tile the block; its carry pieces are whole-buffer stores. -/
theorem cover_out_first (c : Dev nD) (t : Fin cfg0.N) (h0 : t.val % 16 = 0) (y : S4x28x56x256.Idx) :
    ∃ pc ∈ (runFirstAt m c t h0).1, y ∈ pc.1.set :=
  View.cover_of_tiledL (runFirstAt m c t h0).1 S1x28x56x256.size (by sl_kernel_rfl) y
theorem cover_carry_first (c : Dev nD) (t : Fin cfg0.N) (h0 : t.val % 16 = 0) (y : S28x56x256.Idx) :
    ∃ pc ∈ (runFirstAt m c t h0).2.1, y ∈ pc.1.set :=
  View.cover_of_tiledL (runFirstAt m c t h0).2.1 S28x56x256.size (by sl_kernel_rfl) y
theorem cover_out_later (c : Dev nD) (t : Fin cfg0.N) (h0 : t.val % 16 ≠ 0) (xs0 : Vec F S28x56x256 .f32) (y : S4x28x56x256.Idx) :
    ∃ pc ∈ (runLaterAt m c t h0 xs0).1, y ∈ pc.1.set :=
  View.cover_of_tiledL (runLaterAt m c t h0 xs0).1 S1x28x56x256.size (by sl_kernel_rfl) y
theorem cover_carry_later (c : Dev nD) (t : Fin cfg0.N) (h0 : t.val % 16 ≠ 0) (xs0 : Vec F S28x56x256 .f32) (y : S28x56x256.Idx) :
    ∃ pc ∈ (runLaterAt m c t h0 xs0).2.1, y ∈ pc.1.set :=
  View.cover_of_tiledL (runLaterAt m c t h0 xs0).2.1 S28x56x256.size (by sl_kernel_rfl) y

/-! ## What the output buffer and the carry hold after each point -/

/-- After the body at position `n`: the output's staging buffer and the carry buffer. A first block is its run on the
    point's input block; a later block its run from the carry position `n - 1` left. -/
def leftAt (c : Dev nD) : (n : ℕ) → n < cfg0.N → Vec F S4x28x56x256 .f32 × Vec F S28x56x256 .f32
  | 0, hn => (outOf (runFirstAt m c ⟨0, hn⟩ (Nat.zero_mod _)).1, carryOf (runFirstAt m c ⟨0, hn⟩ (Nat.zero_mod _)).2.1)
  | n + 1, hn =>
    if h0 : (n + 1) % 16 = 0 then
      (outOf (runFirstAt m c ⟨n + 1, hn⟩ h0).1, carryOf (runFirstAt m c ⟨n + 1, hn⟩ h0).2.1)
    else
      (outOf (runLaterAt m c ⟨n + 1, hn⟩ h0 (leftAt c n (Nat.lt_of_succ_lt hn)).2).1,
        carryOf (runLaterAt m c ⟨n + 1, hn⟩ h0 (leftAt c n (Nat.lt_of_succ_lt hn)).2).2.1)

theorem leftAt_first (c : Dev nD) (t : Fin cfg0.N) (h0 : t.val % 16 = 0) :
    leftAt m c t.val t.isLt = (outOf (runFirstAt m c t h0).1, carryOf (runFirstAt m c t h0).2.1) := by
  obtain ⟨n, hn⟩ := t
  cases n with
  | zero => rfl
  | succ n => exact (dif_pos h0).trans rfl

theorem leftAt_later (c : Dev nD) (t : Fin cfg0.N) (h0 : t.val % 16 ≠ 0) :
    leftAt m c t.val t.isLt
      = (outOf (runLaterAt m c t h0 (leftAt m c (t.val - 1) (Nat.lt_of_le_of_lt (Nat.sub_le _ _) t.isLt)).2).1,
          carryOf (runLaterAt m c t h0 (leftAt m c (t.val - 1) (Nat.lt_of_le_of_lt (Nat.sub_le _ _) t.isLt)).2).2.1) := by
  obtain ⟨n, hn⟩ := t
  cases n with
  | zero => exact absurd (Nat.zero_mod _) h0
  | succ n => exact (dif_neg h0).trans rfl

/-! ## The region's invariant with the carry named -/

/-- Before position `n`: at the region's entry what the launch hands over (the carry at anything); afterwards the carry
    buffer at what position `n - 1` left in it, and the generator register at some state. -/
def carried (c : Dev nD) : (n : ℕ) → n ≤ cfg0.N → sProp 𝕄
  | 0, _ => Pipeline.ΦA spec0 c
  | n + 1, hn => iprop(iprop(owns (c : Thread nD τ) carryBuf fullShare ((leftAt m c n hn).2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) carryBuf fullShare ((leftAt m c n hn).2)) ∗ (∃ r, prngReg c r)) := rfl

theorem carried_pos (c : Dev nD) (n : ℕ) (h : n ≤ cfg0.N) (hz : n ≠ 0) :
    carried m c n h = iprop(iprop(owns (c : Thread nD τ) carryBuf fullShare ((leftAt m c (n - 1) (by omega)).2)) ∗ (∃ r, prngReg c r)) := by
  cases n with
  | zero => exact absurd rfl hz
  | succ n => rfl

/-! ## The pipeline's proof data -/

/-- On core `c`: the arrays as the region finds them; after the body at point `t` the input's buffer still at its block
    and the output's at `leftAt`; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (leftAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (leftAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point. The input's buffer holds its block; the point's inner coordinate says which branch runs; the
    invariant hands the run the carry (named, except before the very first point) and takes it back at this point's
    contents, the pieces covering the buffer; the output's buffer, taken at anything, comes back at its pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = carried m c (t.val + 1) t.isLt from rfl, carried_succ]
  have hN : t.val < 32 := lt_of_lt_of_eq t.isLt (show cfg0.N = 32 from N_0)
  rw [show (dats m 0 c).leavesExact 0 t = owns (c : Thread nD τ) (inBuf t) fullShare ((dats m 0 c).after 0 t) from by
    unfold Dat.leavesExact; rw [live_in t], after_in]
  rw [show (dats m 0 c).leavesExact 1 t = owns (c : Thread nD τ) (outBuf t) fullShare ((dats m 0 c).after 1 t) from by
    unfold Dat.leavesExact; rw [live_out t], after_out]
  by_cases h0 : t.val % 16 = 0
  · rw [leftAt_first m c t h0]
    unfold outOf carryOf; (try dsimp only)
    by_cases hz : t.val = 0
    · rw [carried_castSucc m c t, carried_zero m c _ _ hz, launchInv_eq]
      iintro ⟨⟨HS0, Hg⟩, Ho, ⟨%d0, H0⟩, ⟨%d1, H1⟩⟩
      iapply ((runFirstAt m c t h0).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (cover_carry_first m c t h0)
        iexact Hg
      isplitl [Ho]; · iexact Ho
      isplitl [H0]; · iexact H0
      unfold owns; iexists _; isplitr
      swap; · iexact H1
      ipureintro; exact View.read_writes_of_cover _ _ _ _ _ (cover_out_first m c t h0)
    · rw [carried_castSucc m c t, carried_pos m c _ _ hz]
      iintro ⟨⟨HS0, Hg⟩, Ho, ⟨%d0, H0⟩, ⟨%d1, H1⟩⟩
      iapply ((runFirstAt m c t h0).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (cover_carry_first m c t h0)
        iexact Hg
      isplitl [Ho]; · iexact Ho
      isplitl [H0]; · iexact H0
      unfold owns; iexists _; isplitr
      swap; · iexact H1
      ipureintro; exact View.read_writes_of_cover _ _ _ _ _ (cover_out_first m c t h0)
  · rw [leftAt_later m c t h0]
    unfold outOf carryOf; (try dsimp only)
    have hz : t.val ≠ 0 := fun h => h0 (by rw [h])
    rw [carried_castSucc m c t, carried_pos m c _ _ hz]
    iintro ⟨⟨HS0, Hg⟩, Ho, ⟨%d0, H0⟩, ⟨%d1, H1⟩⟩
    iapply ((runLaterAt m c t h0 _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg]
    · isplitl [HS0]
      · unfold owns; iexists _; isplitr
        swap; · iexact HS0
        ipureintro; exact View.read_writes_of_cover _ _ _ _ _ (cover_carry_later m c t h0 _)
      iexact Hg
    isplitl [Ho]; · iexact Ho
    isplitl [H0]; · iexact H0
    unfold owns; iexists _; isplitr
    swap; · iexact H1
    ipureintro; exact View.read_writes_of_cover _ _ _ _ _ (cover_out_later m c t h0 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the launch's form back: the carry's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = carried m c (Fin.last cfg0.N).val (Nat.le_of_lt_succ (Fin.last cfg0.N).isLt) from rfl,
    carried_pos m c _ _ ht, launchInv_eq]
  iintro ⟨HS0, Hg⟩
  isplitl [HS0]
  · iexists _; iexact HS0
  iexact Hg

/-! ## The run and the frame -/

set_option backward.isDefEq.respectTransparency.types false in
/-- Every weakly fair execution of the program terminates, and every final state has each array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Scan

end
-- ==== Proof.ScanCasesIdeal.lean ====
/-
  The scan kernel's body, point by point: which of its two branches a grid point takes, the buffers the body is handed,
  and the region invariant with the carry buffer named.

  The grid is 2 × 16: the outer coordinate picks a tile of 28 rows of the height axis, the inner one a block of 4
  consecutive slices of the leading axis. At the first block of a tile (inner coordinate 0) the body seeds its carry
  buffer with the block's first slice; at every later block it first folds the carry into the first slice. Both
  branches then run the same three steps over the remaining slices.
-/
import proofs.«106476_j6837587935356_2_alg».proof.Proof.Gen.KernelIdeal.Frame
import proofs.«106476_j6837587935356_2_alg».proof.Proof.Gen.KernelIdeal.Skeleton
import proofs.«106476_j6837587935356_2_alg».proof.Proof.Gen.KernelIdeal.Launch
import proofs.«106476_j6837587935356_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- "This is the first block of its tile": the inner grid coordinate is zero (the scalar chain of the first `scf.if`). -/
abbrev isFirst (i : grid0.Coords) : Prop :=
  (Scalar.cmpi .ne (Scalar.extui (Scalar.cmpi .eq (BitVec.ofNat 32 (i 1).val) 0#32)) 0#32) = 1#1

/-- "This is a later block": the inner grid coordinate is not zero (the scalar chain of the second `scf.if`). -/
abbrev isLater (i : grid0.Coords) : Prop :=
  (Scalar.cmpi .ne (Scalar.extui (Scalar.cmpi .ne (BitVec.ofNat 32 (i 1).val) 0#32)) 0#32) = 1#1

/-- The points are numbered row-major, so the inner coordinate of point `t` is `t mod 16`. -/
theorem isFirst_iff : ∀ t : Fin cfg0.N, isFirst (grid0.coords t) ↔ t.val % 16 = 0 :=
  (by decide +kernel : ∀ t : Fin grid0.N, isFirst (grid0.coords t) ↔ t.val % 16 = 0)

theorem isLater_iff : ∀ t : Fin cfg0.N, isLater (grid0.coords t) ↔ t.val % 16 ≠ 0 :=
  (by decide +kernel : ∀ t : Fin grid0.N, isLater (grid0.coords t) ↔ t.val % 16 ≠ 0)

/-- Neither window is ever idle: the input is fetched and the output stored whole at every point. -/
theorem live_in : ∀ t : Fin cfg0.N, cfg0.idle 0 (grid0.coords t) = false := by decide +kernel
theorem live_out : ∀ t : Fin cfg0.N, cfg0.idle 1 (grid0.coords t) = false := by decide +kernel

/-! ## The buffers the body is handed at a point -/

/-- The input window's and the output window's current staging buffer at point `t`, and that each is a whole buffer. -/
abbrev inBuf (t : Fin cfg0.N) : Memref sig .tc .vmem S4x28x56x256 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S4x28x56x256 .f32 := win0_1.stage (cfg0.slots t 1)
abbrev outBuf_whole (t : Fin cfg0.N) : (outBuf t).IsWhole := hstage0_1 ((cfg0.slots t 1).cast nbuf0_1)
/-- The carry: the kernel's one scratch buffer, a tile of one slice. -/
abbrev carryBuf : Memref sig .tc .vmem S28x56x256 .f32 := Memref.whole cc0_scratch0
/-- Views through which a buffer's contents are stated (any whole buffer of the shape would do). -/
abbrev carryView : View sig .tc .vmem S28x56x256 .f32 := carryBuf.view
abbrev outView : View sig .tc .vmem S4x28x56x256 .f32 := (Memref.whole cc0_stg1_0 : Memref sig .tc .vmem S4x28x56x256 .f32).view

/-- The region's invariant as the launch hands it over: the carry buffer owned at some contents, and the generator
    register at some state. -/
theorem launchInv_eq (c : Dev nD) :
    (Pipeline.ΦA spec0 c : sProp 𝕄)
      = iprop(iprop((∃ d, owns (c : Thread nD τ) carryBuf fullShare d)) ∗ (∃ r, prngReg c r)) := by
  unfold Pipeline.ΦA; rw [scopedRest0_eq]; simp only [carryBuf, owns_whole]; try rfl

end Cert.KernelIdeal.Scan

end
-- ==== Proof.ScanFirstIdeal.lean ====
/-
  The body at the FIRST block of a tile. The carry buffer is handed over at unknown contents (the body loads it once
  before overwriting it, and discards what it loaded); the output buffer at unknown contents too (each of its four
  slices is loaded, discarded, and stored). The run ends with the input buffer as it was, and the output and carry
  buffers each holding a list of written pieces, which the run itself finds.
-/
import proofs.«106476_j6837587935356_2_alg».proof.Proof.ScanCasesIdeal

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a first block: from the input buffer at `x0`, the output and carry buffers at anything, to the
    continuation holding the input buffer at `x0` and the other two with their pieces written (last store first). -/
noncomputable def runFirst (c : Dev nD) (i : grid0.Coords) (arg2 : Memref sig .tc .vmem S4x28x56x256 .f32) (harg2 : arg2.IsWhole) (arg3 : Memref sig .tc .vmem S4x28x56x256 .f32) (harg3 : arg3.IsWhole) (arg4 : Memref sig .tc .vmem S28x56x256 .f32) (harg4 : arg4.IsWhole) (hc0 : isFirst i) (hc1 : ¬isLater i)
    (x0 : Vec F S4x28x56x256 .f32) :
    Σ' (L1 : List (View.Piece (Elt F) S4x28x56x256 .f32)), { LS0 : List (View.Piece (Elt F) S28x56x256 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__cummax_kernel i arg2 harg2 arg3 harg3 arg4 harg4) K } := by
  refine ⟨?_, ?_, fun E K => ?run⟩
  case run =>
    simp only [cc0__cummax_kernel_eq_skeleton]; unfold cc0__cummax_kernel_skel
    simp only [k0_part1_eq_skeleton]
    unfold owns
    iintro ⟨⟨%f0, %hf0, H0⟩, ⟨%d1, %f1, -, H1⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Scan

end
-- ==== Proof.ScanLaterIdeal.lean ====
/-
  The body at a LATER block of a tile. The carry buffer is handed over at the contents `xs0` the block before left in
  it, and the first slice is folded into it; the output buffer is at unknown contents. The run ends with the input buffer
  as it was, and the output and carry buffers each holding a list of written pieces, which the run itself finds.
-/
import proofs.«106476_j6837587935356_2_alg».proof.Proof.ScanFirstIdeal

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a later block: from the input buffer at `x0`, the carry buffer at `xs0`, the output buffer at
    anything, to the continuation holding the input buffer at `x0` and the other two with their pieces written. -/
noncomputable def runLater (c : Dev nD) (i : grid0.Coords) (arg2 : Memref sig .tc .vmem S4x28x56x256 .f32) (harg2 : arg2.IsWhole) (arg3 : Memref sig .tc .vmem S4x28x56x256 .f32) (harg3 : arg3.IsWhole) (arg4 : Memref sig .tc .vmem S28x56x256 .f32) (harg4 : arg4.IsWhole) (hc0 : ¬isFirst i) (hc1 : isLater i)
    (x0 : Vec F S4x28x56x256 .f32) (xs0 : Vec F S28x56x256 .f32) :
    Σ' (L1 : List (View.Piece (Elt F) S4x28x56x256 .f32)), { LS0 : List (View.Piece (Elt F) S28x56x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__cummax_kernel i arg2 harg2 arg3 harg3 arg4 harg4) K } := by
  refine ⟨?_, ?_, fun E K => ?run⟩
  case run =>
    simp only [cc0__cummax_kernel_eq_skeleton]; unfold cc0__cummax_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Scan

end
-- ==== Proof.ScanFrameIdeal.lean ====
/-
  The scan kernel's frame: every weakly fair execution of the program terminates without a fault and leaves the
  argument array as it was.

  What each grid point leaves behind is defined by recursion on the point: the output block's four slices and the
  carry buffer. A first block of a tile depends on its input block alone; a later block also on the carry the block
  before left. The region's invariant names the carry buffer's contents from the second point on, which is what lets
  a later block's run be applied. Each point's obligation is then the run of the branch the point takes.
-/
import proofs.«106476_j6837587935356_2_alg».proof.Proof.ScanLaterIdeal

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a list of written pieces leaves in a buffer -/

/-- The output buffer's contents after the writes `L` (read through one fixed view over junk: where the pieces cover
    the block the choice of view and of prior contents does not matter). -/
def outOf (L : List (View.Piece (Elt F) S4x28x56x256 .f32)) : Vec F S4x28x56x256 .f32 :=
  outView.read (Elt F) (outView.writes (Elt F) outView.junk L)

/-- The carry buffer's contents after the writes `L`. -/
def carryOf (L : List (View.Piece (Elt F) S28x56x256 .f32)) : Vec F S28x56x256 .f32 :=
  carryView.read (Elt F) (carryView.writes (Elt F) carryView.junk L)

/-! ## The two runs at a grid point -/

/-- The first-block run at point `t` (inner coordinate zero), on the point's buffers and input block. -/
def runFirstAt (c : Dev nD) (t : Fin cfg0.N) (h0 : t.val % 16 = 0) :=
  runFirst (F := F) c (grid0.coords t) (inBuf t) (inBuf_whole t) (outBuf t) (outBuf_whole t) carryBuf (Memref.isWhole_whole _)
    ((isFirst_iff t).mpr h0) (fun h => (isLater_iff t).mp h h0) (iblk m c 0 t)

/-- The later-block run at point `t` (inner coordinate not zero), from the carry `xs0`. -/
def runLaterAt (c : Dev nD) (t : Fin cfg0.N) (h0 : t.val % 16 ≠ 0) (xs0 : Vec F S28x56x256 .f32) :=
  runLater (F := F) c (grid0.coords t) (inBuf t) (inBuf_whole t) (outBuf t) (outBuf_whole t) carryBuf (Memref.isWhole_whole _)
    (fun h => h0 ((isFirst_iff t).mp h)) ((isLater_iff t).mpr h0) (iblk m c 0 t) xs0

/-- Either run's output pieces are four slices that tile the block; its carry pieces are whole-buffer stores. -/
theorem cover_out_first (c : Dev nD) (t : Fin cfg0.N) (h0 : t.val % 16 = 0) (y : S4x28x56x256.Idx) :
    ∃ pc ∈ (runFirstAt m c t h0).1, y ∈ pc.1.set :=
  View.cover_of_tiledL (runFirstAt m c t h0).1 S1x28x56x256.size (by sl_kernel_rfl) y
theorem cover_carry_first (c : Dev nD) (t : Fin cfg0.N) (h0 : t.val % 16 = 0) (y : S28x56x256.Idx) :
    ∃ pc ∈ (runFirstAt m c t h0).2.1, y ∈ pc.1.set :=
  View.cover_of_tiledL (runFirstAt m c t h0).2.1 S28x56x256.size (by sl_kernel_rfl) y
theorem cover_out_later (c : Dev nD) (t : Fin cfg0.N) (h0 : t.val % 16 ≠ 0) (xs0 : Vec F S28x56x256 .f32) (y : S4x28x56x256.Idx) :
    ∃ pc ∈ (runLaterAt m c t h0 xs0).1, y ∈ pc.1.set :=
  View.cover_of_tiledL (runLaterAt m c t h0 xs0).1 S1x28x56x256.size (by sl_kernel_rfl) y
theorem cover_carry_later (c : Dev nD) (t : Fin cfg0.N) (h0 : t.val % 16 ≠ 0) (xs0 : Vec F S28x56x256 .f32) (y : S28x56x256.Idx) :
    ∃ pc ∈ (runLaterAt m c t h0 xs0).2.1, y ∈ pc.1.set :=
  View.cover_of_tiledL (runLaterAt m c t h0 xs0).2.1 S28x56x256.size (by sl_kernel_rfl) y

/-! ## What the output buffer and the carry hold after each point -/

/-- After the body at position `n`: the output's staging buffer and the carry buffer. A first block is its run on the
    point's input block; a later block its run from the carry position `n - 1` left. -/
def leftAt (c : Dev nD) : (n : ℕ) → n < cfg0.N → Vec F S4x28x56x256 .f32 × Vec F S28x56x256 .f32
  | 0, hn => (outOf (runFirstAt m c ⟨0, hn⟩ (Nat.zero_mod _)).1, carryOf (runFirstAt m c ⟨0, hn⟩ (Nat.zero_mod _)).2.1)
  | n + 1, hn =>
    if h0 : (n + 1) % 16 = 0 then
      (outOf (runFirstAt m c ⟨n + 1, hn⟩ h0).1, carryOf (runFirstAt m c ⟨n + 1, hn⟩ h0).2.1)
    else
      (outOf (runLaterAt m c ⟨n + 1, hn⟩ h0 (leftAt c n (Nat.lt_of_succ_lt hn)).2).1,
        carryOf (runLaterAt m c ⟨n + 1, hn⟩ h0 (leftAt c n (Nat.lt_of_succ_lt hn)).2).2.1)

theorem leftAt_first (c : Dev nD) (t : Fin cfg0.N) (h0 : t.val % 16 = 0) :
    leftAt m c t.val t.isLt = (outOf (runFirstAt m c t h0).1, carryOf (runFirstAt m c t h0).2.1) := by
  obtain ⟨n, hn⟩ := t
  cases n with
  | zero => rfl
  | succ n => exact (dif_pos h0).trans rfl

theorem leftAt_later (c : Dev nD) (t : Fin cfg0.N) (h0 : t.val % 16 ≠ 0) :
    leftAt m c t.val t.isLt
      = (outOf (runLaterAt m c t h0 (leftAt m c (t.val - 1) (Nat.lt_of_le_of_lt (Nat.sub_le _ _) t.isLt)).2).1,
          carryOf (runLaterAt m c t h0 (leftAt m c (t.val - 1) (Nat.lt_of_le_of_lt (Nat.sub_le _ _) t.isLt)).2).2.1) := by
  obtain ⟨n, hn⟩ := t
  cases n with
  | zero => exact absurd (Nat.zero_mod _) h0
  | succ n => exact (dif_neg h0).trans rfl

/-! ## The region's invariant with the carry named -/

/-- Before position `n`: at the region's entry what the launch hands over (the carry at anything); afterwards the carry
    buffer at what position `n - 1` left in it, and the generator register at some state. -/
def carried (c : Dev nD) : (n : ℕ) → n ≤ cfg0.N → sProp 𝕄
  | 0, _ => Pipeline.ΦA spec0 c
  | n + 1, hn => iprop(iprop(owns (c : Thread nD τ) carryBuf fullShare ((leftAt m c n hn).2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) carryBuf fullShare ((leftAt m c n hn).2)) ∗ (∃ r, prngReg c r)) := rfl

theorem carried_pos (c : Dev nD) (n : ℕ) (h : n ≤ cfg0.N) (hz : n ≠ 0) :
    carried m c n h = iprop(iprop(owns (c : Thread nD τ) carryBuf fullShare ((leftAt m c (n - 1) (by omega)).2)) ∗ (∃ r, prngReg c r)) := by
  cases n with
  | zero => exact absurd rfl hz
  | succ n => rfl

/-! ## The pipeline's proof data -/

/-- On core `c`: the arrays as the region finds them; after the body at point `t` the input's buffer still at its block
    and the output's at `leftAt`; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (leftAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (leftAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point. The input's buffer holds its block; the point's inner coordinate says which branch runs; the
    invariant hands the run the carry (named, except before the very first point) and takes it back at this point's
    contents, the pieces covering the buffer; the output's buffer, taken at anything, comes back at its pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = carried m c (t.val + 1) t.isLt from rfl, carried_succ]
  have hN : t.val < 32 := lt_of_lt_of_eq t.isLt (show cfg0.N = 32 from N_0)
  rw [show (dats m 0 c).leavesExact 0 t = owns (c : Thread nD τ) (inBuf t) fullShare ((dats m 0 c).after 0 t) from by
    unfold Dat.leavesExact; rw [live_in t], after_in]
  rw [show (dats m 0 c).leavesExact 1 t = owns (c : Thread nD τ) (outBuf t) fullShare ((dats m 0 c).after 1 t) from by
    unfold Dat.leavesExact; rw [live_out t], after_out]
  by_cases h0 : t.val % 16 = 0
  · rw [leftAt_first m c t h0]
    unfold outOf carryOf; (try dsimp only)
    by_cases hz : t.val = 0
    · rw [carried_castSucc m c t, carried_zero m c _ _ hz, launchInv_eq]
      iintro ⟨⟨HS0, Hg⟩, Ho, ⟨%d0, H0⟩, ⟨%d1, H1⟩⟩
      iapply ((runFirstAt m c t h0).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (cover_carry_first m c t h0)
        iexact Hg
      isplitl [Ho]; · iexact Ho
      isplitl [H0]; · iexact H0
      unfold owns; iexists _; isplitr
      swap; · iexact H1
      ipureintro; exact View.read_writes_of_cover _ _ _ _ _ (cover_out_first m c t h0)
    · rw [carried_castSucc m c t, carried_pos m c _ _ hz]
      iintro ⟨⟨HS0, Hg⟩, Ho, ⟨%d0, H0⟩, ⟨%d1, H1⟩⟩
      iapply ((runFirstAt m c t h0).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (cover_carry_first m c t h0)
        iexact Hg
      isplitl [Ho]; · iexact Ho
      isplitl [H0]; · iexact H0
      unfold owns; iexists _; isplitr
      swap; · iexact H1
      ipureintro; exact View.read_writes_of_cover _ _ _ _ _ (cover_out_first m c t h0)
  · rw [leftAt_later m c t h0]
    unfold outOf carryOf; (try dsimp only)
    have hz : t.val ≠ 0 := fun h => h0 (by rw [h])
    rw [carried_castSucc m c t, carried_pos m c _ _ hz]
    iintro ⟨⟨HS0, Hg⟩, Ho, ⟨%d0, H0⟩, ⟨%d1, H1⟩⟩
    iapply ((runLaterAt m c t h0 _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg]
    · isplitl [HS0]
      · unfold owns; iexists _; isplitr
        swap; · iexact HS0
        ipureintro; exact View.read_writes_of_cover _ _ _ _ _ (cover_carry_later m c t h0 _)
      iexact Hg
    isplitl [Ho]; · iexact Ho
    isplitl [H0]; · iexact H0
    unfold owns; iexists _; isplitr
    swap; · iexact H1
    ipureintro; exact View.read_writes_of_cover _ _ _ _ _ (cover_out_later m c t h0 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the launch's form back: the carry's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = carried m c (Fin.last cfg0.N).val (Nat.le_of_lt_succ (Fin.last cfg0.N).isLt) from rfl,
    carried_pos m c _ _ ht, launchInv_eq]
  iintro ⟨HS0, Hg⟩
  isplitl [HS0]
  · iexists _; iexact HS0
  iexact Hg

/-! ## The run and the frame -/

set_option backward.isDefEq.respectTransparency.types false in
/-- Every weakly fair execution of the program terminates, and every final state has each array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Scan

end
-- ==== Proof.ScanPieces.lean ====
/-
  What the two runs of the scan body leave, read as tiles. A block holds four consecutive slices of the leading axis;
  the body walks them once, keeping the running maximum in the carry buffer and storing it as each output slice. Here
  the pieces the runs found are read back as that running maximum, tile by tile, at any float instance.
-/
import proofs.«106476_j6837587935356_2_alg».proof.Proof.ScanFrameIdeal
import Idealize.ShloMosaic.Lib.ValueIdx
import Idealize.ShloMosaic.Lib.Pipeline.Value

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Slices of a block and their running maximum -/

/-- Slice `k` of a four-slice block, as a tile of one slice. -/
def sliceOf (x0 : Vec F S4x28x56x256 .f32) (k : Fin 4) : Vec F S28x56x256 .f32 :=
  fun j => x0 (ix4 k (j 0 : Fin 28) (j 1 : Fin 56) (j 2 : Fin 256) : S4x28x56x256.Idx)

/-- The running maximum over the block's slices `0 … k`, the scan seeded so that position 0 is `a0`. -/
def scan4 (a0 : Vec F S28x56x256 .f32) (x0 : Vec F S4x28x56x256 .f32) : Fin 4 → Vec F S28x56x256 .f32
  | ⟨0, _⟩ => a0
  | ⟨1, _⟩ => maximumf a0 (sliceOf x0 1)
  | ⟨2, _⟩ => maximumf (maximumf a0 (sliceOf x0 1)) (sliceOf x0 2)
  | ⟨3, _⟩ => maximumf (maximumf (maximumf a0 (sliceOf x0 1)) (sliceOf x0 2)) (sliceOf x0 3)

/-! ## Reading a tile out of a block, and a block's four stored slices back

The body loads slice `k` of its input block through the rectangle at offset `(k, 0, 0, 0)` of extent `[1, 28, 56, 256]`
and drops the unit axis; it stores a tile as slice `k` of the output block by adding the unit axis back and storing through
the same rectangle. Both are index bookkeeping: coordinate `(k + 0, r, w, l)` of the block against `(r, w, l)` of the tile. -/

theorem hz3 : (![0, 0, 0] : Fin 3 → Nat) = fun _ => 0 := funext fun a => by fin_cases a <;> rfl

/-- A load through the whole-buffer rectangle, after stores the LAST of which was through it, reads that store's payload. -/
theorem readCov_cons_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Slice `k` of a block, loaded through its rectangle and the unit axis dropped, is the tile `sliceOf x0 k`. -/
theorem load_slice (x0 : Vec F S4x28x56x256 .f32) (k : Fin 4) {off : Fin 4 → ℕ} (hoff : off = ![k.val, 0, 0, 0])
    (inb : ∀ a, off a + S1x28x56x256.size a ≤ S4x28x56x256.size a) (h : S1x28x56x256.ShapeCasts S28x56x256) :
    shapeCast S28x56x256 (View.ld x0 (Rect.unit (s := S4x28x56x256) off S1x28x56x256.size inb)) h = sliceOf x0 k := by
  subst hoff
  funext j
  refine (shapeCast_dropUnit_apply ![28, 56, 256] _ h j).trans ?_
  unfold sliceOf
  refine congrArg x0 (funext fun a => Fin.ext ?_)
  match a with
  | ⟨0, _⟩ => show k.val + 1 * 0 = k.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega

/-- One of four tiles by position. -/
def pick4 (a0 a1 a2 a3 : Vec F S28x56x256 .f32) : Fin 4 → Vec F S28x56x256 .f32
  | ⟨0, _⟩ => a0
  | ⟨1, _⟩ => a1
  | ⟨2, _⟩ => a2
  | ⟨3, _⟩ => a3

/-- Four tiles, chosen by position, laid out as the four slices of a block. -/
def stack4 (f : Fin 4 → Vec F S28x56x256 .f32) : Vec F S4x28x56x256 .f32 :=
  fun y => f (y 0 : Fin 4) (ix3 (y 1 : Fin 28) (y 2 : Fin 56) (y 3 : Fin 256) : S28x56x256.Idx)

/-- A tile stored as slice `k` of a block (the unit axis added back) agrees, under its rectangle, with "tile number
    `y 0` at `(y 1, y 2, y 3)`". -/
theorem stored_slice (a0 a1 a2 a3 : Vec F S28x56x256 .f32) (k : Fin 4) {off : Fin 4 → ℕ} (hoff : off = ![k.val, 0, 0, 0])
    (inb : ∀ a, off a + S1x28x56x256.size a ≤ S4x28x56x256.size a) (h : S28x56x256.ShapeCasts S1x28x56x256)
    (x : (Rect.unit (s := S4x28x56x256) off S1x28x56x256.size inb).shape.Idx) :
    shapeCast S1x28x56x256 (pick4 a0 a1 a2 a3 k) h x
      = (fun y : S4x28x56x256.Idx => pick4 a0 a1 a2 a3 (y 0 : Fin 4) (ix3 (y 1 : Fin 28) (y 2 : Fin 56) (y 3 : Fin 256) : S28x56x256.Idx))
          ((Rect.unit (s := S4x28x56x256) off S1x28x56x256.size inb).emb x) := by
  subst hoff
  refine (shapeCast_addUnit_apply ![28, 56, 256] _ h x).trans ?_
  have hx : (x 0).val < 1 := (x 0).isLt
  have e0 : ((Rect.unit (s := S4x28x56x256) ![k.val, 0, 0, 0] S1x28x56x256.size inb).emb x (0 : Fin 4) : Fin 4) = k :=
    Fin.ext (by show k.val + 1 * (x 0).val = k.val; omega)
  show _ = pick4 a0 a1 a2 a3 ((Rect.unit (s := S4x28x56x256) ![k.val, 0, 0, 0] S1x28x56x256.size inb).emb x (0 : Fin 4) : Fin 4) _
  rw [e0]
  refine congrArg (pick4 a0 a1 a2 a3 k) (funext fun a => Fin.ext ?_)
  match a with
  | ⟨0, _⟩ => show (x 1).val = 0 + 1 * (x 1).val; omega
  | ⟨1, _⟩ => show (x 2).val = 0 + 1 * (x 2).val; omega
  | ⟨2, _⟩ => show (x 3).val = 0 + 1 * (x 3).val; omega

/-- Four tiles stored as the four slices of a block, read back at an index: tile number `y 0` at `(y 1, y 2, y 3)`. -/
theorem canon_four_slices (a0 a1 a2 a3 : Vec F S28x56x256 .f32)
    (inb0 : ∀ a, (![0, 0, 0, 0] : Fin 4 → ℕ) a + S1x28x56x256.size a ≤ S4x28x56x256.size a)
    (inb1 : ∀ a, (![1, 0, 0, 0] : Fin 4 → ℕ) a + S1x28x56x256.size a ≤ S4x28x56x256.size a)
    (inb2 : ∀ a, (![2, 0, 0, 0] : Fin 4 → ℕ) a + S1x28x56x256.size a ≤ S4x28x56x256.size a)
    (inb3 : ∀ a, (![3, 0, 0, 0] : Fin 4 → ℕ) a + S1x28x56x256.size a ≤ S4x28x56x256.size a)
    (h : S28x56x256.ShapeCasts S1x28x56x256) :
    View.canon (Val := Elt F)
        [(⟨Rect.unit (s := S4x28x56x256) ![3, 0, 0, 0] S1x28x56x256.size inb3, shapeCast S1x28x56x256 a3 h⟩ : View.Piece (Elt F) S4x28x56x256 .f32),
          ⟨Rect.unit (s := S4x28x56x256) ![2, 0, 0, 0] S1x28x56x256.size inb2, shapeCast S1x28x56x256 a2 h⟩,
          ⟨Rect.unit (s := S4x28x56x256) ![1, 0, 0, 0] S1x28x56x256.size inb1, shapeCast S1x28x56x256 a1 h⟩,
          ⟨Rect.unit (s := S4x28x56x256) ![0, 0, 0, 0] S1x28x56x256.size inb0, shapeCast S1x28x56x256 a0 h⟩]
      = stack4 (pick4 a0 a1 a2 a3) := by
  funext y
  refine View.canon_apply_of_pieces
    (fun y : S4x28x56x256.Idx => pick4 a0 a1 a2 a3 (y 0 : Fin 4) (ix3 (y 1 : Fin 28) (y 2 : Fin 56) (y 3 : Fin 256) : S28x56x256.Idx))
    _ ?_ y (View.cover_of_tiledL (s := S4x28x56x256) _ S1x28x56x256.size (by sl_kernel_rfl) y)
  intro p hp
  simp only [List.mem_cons, List.mem_nil_iff, or_false] at hp
  rcases hp with rfl | rfl | rfl | rfl
  · exact fun x => stored_slice a0 a1 a2 a3 3 rfl inb3 h x
  · exact fun x => stored_slice a0 a1 a2 a3 2 rfl inb2 h x
  · exact fun x => stored_slice a0 a1 a2 a3 1 rfl inb1 h x
  · exact fun x => stored_slice a0 a1 a2 a3 0 rfl inb0 h x

/-- The running maximum, position by position, as a choice among its four tiles. -/
theorem scan4_eq_pick4 (a0 : Vec F S28x56x256 .f32) (x0 : Vec F S4x28x56x256 .f32) :
    scan4 a0 x0 = pick4 a0 (maximumf a0 (sliceOf x0 1)) (maximumf (maximumf a0 (sliceOf x0 1)) (sliceOf x0 2))
      (maximumf (maximumf (maximumf a0 (sliceOf x0 1)) (sliceOf x0 2)) (sliceOf x0 3)) := by
  funext k
  match k with
  | ⟨0, _⟩ => rfl
  | ⟨1, _⟩ => rfl
  | ⟨2, _⟩ => rfl
  | ⟨3, _⟩ => rfl

variable (c : Dev nD) (i : grid0.Coords) (arg2 : Memref sig .tc .vmem S4x28x56x256 .f32) (harg2 : arg2.IsWhole)
  (arg3 : Memref sig .tc .vmem S4x28x56x256 .f32) (harg3 : arg3.IsWhole) (arg4 : Memref sig .tc .vmem S28x56x256 .f32) (harg4 : arg4.IsWhole)

/-- At a first block the carry ends at the maximum of the block's four slices. -/
theorem carry_first (hc0 : isFirst i) (hc1 : ¬isLater i) (x0 : Vec F S4x28x56x256 .f32) :
    carryOf (runFirst c i arg2 harg2 arg3 harg3 arg4 harg4 hc0 hc1 x0).2.1 = scan4 (sliceOf x0 0) x0 3 := by
  unfold carryOf
  rw [View.read_writes_eq_canon _ _ _ (View.cover_of_tiledL _ S28x56x256.size (by sl_kernel_rfl))]
  unfold runFirst
  dsimp only
  sl_unfold_words
  rw [View.canon_cons_unit_zero hz3]
  simp only [View.readAt_eq_ld, harg2.read_unread]
  simp only [k0_pay3, k0_pay2, k0_pay15, k0_pay14, k0_pay12, k0_pay11, k0_pay6, k0_pay5, shapeCast_self,
    load_slice x0 0 (off := ![0, 0, 0, 0]) rfl, load_slice x0 1 (off := ![1, 0, 0, 0]) rfl,
    load_slice x0 2 (off := ![2, 0, 0, 0]) rfl, load_slice x0 3 (off := ![3, 0, 0, 0]) rfl]
  simp only [readCov_cons_whole arg4.view hz3]
  rfl

/-- At a first block the output block is the running maximum laid out slice by slice. -/
theorem out_first_block (hc0 : isFirst i) (hc1 : ¬isLater i) (x0 : Vec F S4x28x56x256 .f32) :
    outOf (runFirst c i arg2 harg2 arg3 harg3 arg4 harg4 hc0 hc1 x0).1 = stack4 (scan4 (sliceOf x0 0) x0) := by
  unfold outOf
  rw [View.read_writes_eq_canon _ _ _ (View.cover_of_tiledL (s := S4x28x56x256) _ S1x28x56x256.size (by sl_kernel_rfl))]
  unfold runFirst
  dsimp only
  sl_unfold_words
  simp only [View.readAt_eq_ld, harg2.read_unread]
  simp only [k0_pay1, k0_pay4, k0_pay2, k0_pay13, k0_pay7, k0_pay15, k0_pay14, k0_pay12, k0_pay11, k0_pay6, k0_pay5, shapeCast_self,
    load_slice x0 0 (off := ![0, 0, 0, 0]) rfl, load_slice x0 1 (off := ![1, 0, 0, 0]) rfl,
    load_slice x0 2 (off := ![2, 0, 0, 0]) rfl, load_slice x0 3 (off := ![3, 0, 0, 0]) rfl]
  simp only [readCov_cons_whole arg4.view hz3]
  rw [scan4_eq_pick4]
  exact canon_four_slices _ _ _ _ _ _ _ _ _

/-- At a first block output slice `k` is the maximum of the block's slices `0 … k`. -/
theorem out_first (hc0 : isFirst i) (hc1 : ¬isLater i) (x0 : Vec F S4x28x56x256 .f32) (y : S4x28x56x256.Idx) :
    outOf (runFirst c i arg2 harg2 arg3 harg3 arg4 harg4 hc0 hc1 x0).1 y
      = scan4 (sliceOf x0 0) x0 (y 0 : Fin 4) (ix3 (y 1 : Fin 28) (y 2 : Fin 56) (y 3 : Fin 256) : S28x56x256.Idx) :=
  congrFun (out_first_block c i arg2 harg2 arg3 harg3 arg4 harg4 hc0 hc1 x0) y

/-- At a later block the carry ends at the maximum of the carry it was handed and the block's four slices. -/
theorem carry_later (hc0 : ¬isFirst i) (hc1 : isLater i) (x0 : Vec F S4x28x56x256 .f32) (xs0 : Vec F S28x56x256 .f32) :
    carryOf (runLater c i arg2 harg2 arg3 harg3 arg4 harg4 hc0 hc1 x0 xs0).2.1 = scan4 (maximumf xs0 (sliceOf x0 0)) x0 3 := by
  unfold carryOf
  rw [View.read_writes_eq_canon _ _ _ (View.cover_of_tiledL _ S28x56x256.size (by sl_kernel_rfl))]
  unfold runLater
  dsimp only
  sl_unfold_words
  rw [View.canon_cons_unit_zero hz3]
  simp only [View.readAt_eq_ld, harg2.read_unread, harg4.read_unread, View.ld_unit_zero (S := S28x56x256) hz3]
  simp only [k0_pay3, k0_pay2, k0_pay15, k0_pay14, k0_pay12, k0_pay11, k0_pay9, k0_pay8, shapeCast_self,
    load_slice x0 0 (off := ![0, 0, 0, 0]) rfl, load_slice x0 1 (off := ![1, 0, 0, 0]) rfl,
    load_slice x0 2 (off := ![2, 0, 0, 0]) rfl, load_slice x0 3 (off := ![3, 0, 0, 0]) rfl]
  simp only [readCov_cons_whole arg4.view hz3]
  rfl

/-- At a later block the output block is the running maximum, seeded with the carry, laid out slice by slice. -/
theorem out_later_block (hc0 : ¬isFirst i) (hc1 : isLater i) (x0 : Vec F S4x28x56x256 .f32) (xs0 : Vec F S28x56x256 .f32) :
    outOf (runLater c i arg2 harg2 arg3 harg3 arg4 harg4 hc0 hc1 x0 xs0).1 = stack4 (scan4 (maximumf xs0 (sliceOf x0 0)) x0) := by
  unfold outOf
  rw [View.read_writes_eq_canon _ _ _ (View.cover_of_tiledL (s := S4x28x56x256) _ S1x28x56x256.size (by sl_kernel_rfl))]
  unfold runLater
  dsimp only
  sl_unfold_words
  simp only [View.readAt_eq_ld, harg2.read_unread, harg4.read_unread, View.ld_unit_zero (S := S28x56x256) hz3]
  simp only [k0_pay1, k0_pay4, k0_pay2, k0_pay13, k0_pay10, k0_pay15, k0_pay14, k0_pay12, k0_pay11, k0_pay9, k0_pay8, shapeCast_self,
    load_slice x0 0 (off := ![0, 0, 0, 0]) rfl, load_slice x0 1 (off := ![1, 0, 0, 0]) rfl,
    load_slice x0 2 (off := ![2, 0, 0, 0]) rfl, load_slice x0 3 (off := ![3, 0, 0, 0]) rfl]
  simp only [readCov_cons_whole arg4.view hz3]
  rw [scan4_eq_pick4]
  exact canon_four_slices _ _ _ _ _ _ _ _ _

/-- At a later block output slice `k` is the maximum of the carry it was handed and the block's slices `0 … k`. -/
theorem out_later (hc0 : ¬isFirst i) (hc1 : isLater i) (x0 : Vec F S4x28x56x256 .f32) (xs0 : Vec F S28x56x256 .f32) (y : S4x28x56x256.Idx) :
    outOf (runLater c i arg2 harg2 arg3 harg3 arg4 harg4 hc0 hc1 x0 xs0).1 y
      = scan4 (maximumf xs0 (sliceOf x0 0)) x0 (y 0 : Fin 4) (ix3 (y 1 : Fin 28) (y 2 : Fin 56) (y 3 : Fin 256) : S28x56x256.Idx) :=
  congrFun (out_later_block c i arg2 harg2 arg3 harg3 arg4 harg4 hc0 hc1 x0 xs0) y

end Cert.KernelIdeal.Scan

end
-- ==== Proof.Spec.lean ====
/-
  The running maximum along the leading axis of a [64, 56, 56, 256] array over the extended reals: the entry at
  (b, h, w, c) is the largest of x (b', h, w, c) over b' ≤ b. Both programs compute this function; here it is stated
  once, with the two recursion equations a left-to-right scan satisfies.
-/
import Idealize.ShloMosaic.PureOps.Ideal
import Idealize.ShloMosaic.Lib.ValueIdx

noncomputable section

namespace Cert.CumMax

open Idealize.ShloMosaic Idealize.ShloMosaic.ValueIdx

/-- The shape of the argument and of the result. -/
abbrev SX : Shape := ⟨4, ![64, 56, 56, 256]⟩

/-- The largest of `x (b', h, w, c)` over `b' ≤ b` (the supremum of a finite nonempty family; the lattice's bottom
    `-∞` is the empty supremum and never the value unless every entry is `-∞`). -/
def cumMax (x : SX.Idx → EReal) (b : Fin 64) (h : Fin 56) (w : Fin 56) (c : Fin 256) : EReal :=
  (Finset.Iic b).sup fun b' => x (ix4 b' h w c)

/-- The whole result array: the running maximum read at an index's coordinates. -/
def G (x : SX.Idx → EReal) : SX.Idx → EReal := fun i => cumMax x (i 0) (i 1) (i 2) (i 3)

/-- The scan starts at the first slice. -/
theorem cumMax_zero (x : SX.Idx → EReal) (h : Fin 56) (w : Fin 56) (c : Fin 256) :
    cumMax x 0 h w c = x (ix4 0 h w c) := by
  unfold cumMax
  have : Finset.Iic (0 : Fin 64) = {0} := by decide
  rw [this, Finset.sup_singleton]

/-- One step of the scan: the running maximum at `b + 1` is the larger of the running maximum at `b` and the new
    slice's entry. -/
theorem cumMax_succ (x : SX.Idx → EReal) (b : Fin 64) (hb : b.val + 1 < 64) (h : Fin 56) (w : Fin 56) (c : Fin 256) :
    cumMax x ⟨b.val + 1, hb⟩ h w c = max (cumMax x b h w c) (x (ix4 ⟨b.val + 1, hb⟩ h w c)) := by
  unfold cumMax
  have : Finset.Iic (⟨b.val + 1, hb⟩ : Fin 64) = insert ⟨b.val + 1, hb⟩ (Finset.Iic b) := by
    ext a
    simp only [Finset.mem_Iic, Finset.mem_insert, Fin.le_def, Fin.ext_iff]
    omega
  rw [this, Finset.sup_insert, sup_comm]

end Cert.CumMax

end
-- ==== Proof.ScanValue.lean ====
/-
  The scan kernel's value: after the run the result array is the running maximum, along the leading axis, of the
  argument array.

  The array has shape [64, 56, 56, 256]. The grid has 2 × 16 points, numbered row-major, so point t has outer
  coordinate t / 16 and inner coordinate t % 16. The outer coordinate picks a tile of 28 rows of the height axis, the
  inner one a block of 4 consecutive slices of the leading axis: point t's block holds the slices
  4 · (t % 16) + k, k = 0 … 3, at the heights 28 · (t / 16) + r, r = 0 … 27. Within a tile the points run through the
  leading axis in order, and the carry buffer hands the running maximum from each block to the next.

  The argument has five steps.
    A. An element (k, r, w, l) of point t's input block is the array's element (4 · (t % 16) + k, 28 · (t / 16) + r, w, l).
    B. The invariant, by induction on the point: after point t the carry holds the running maximum up to the block's last
       slice, and output slice k the running maximum up to slice 4 · (t % 16) + k. A first block (t % 16 = 0) starts the
       scan at the array's slice 0; a later block continues from the carry the point before left, which by the induction
       hypothesis is the running maximum up to the slice just before this block's first.
    C. So what point t writes back is its block of the running-maximum array.
    D. Every index of the array lies in the block of the point 16 · (height / 28) + slice / 4, and every point writes
       back; so the result array ends holding the running maximum everywhere.
    E. The kernel's run, with that array named.
-/
import proofs.«106476_j6837587935356_2_alg».proof.Proof.ScanPieces
import proofs.«106476_j6837587935356_2_alg».proof.Proof.Spec
import Idealize.ShloMosaic.Lib.ValueIdx
import Idealize.ShloMosaic.Lib.Pipeline.Value
import Idealize.ShloMosaic.PureOps.Ideal

set_option maxRecDepth 16384

noncomputable section

namespace Cert.KernelIdeal.ScanValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Scan Cert.CumMax Idealize.ShloMosaic.ValueIdx

variable (m : (ℓ : Loc nD τ sig) → Buf (Elt Ideal) ℓ) (ρ : Dev nD → PrngReg)

/-! ## A. The index maps over the grid, and the input block read in the array -/

/-- Both windows move alike: the block index on the leading axis is the inner grid coordinate `t % 16`, on the height
    axis the outer one `t / 16`, and on the last two axes 0 (the block spans them). Decided over the 32 points. -/
theorem idx_facts : ∀ t : Fin cfg0.N,
    win0_0.index t (0 : Fin 4) = t.val % 16 ∧ win0_0.index t (1 : Fin 4) = t.val / 16
    ∧ win0_0.index t (2 : Fin 4) = 0 ∧ win0_0.index t (3 : Fin 4) = 0
    ∧ win0_1.index t (0 : Fin 4) = t.val % 16 ∧ win0_1.index t (1 : Fin 4) = t.val / 16
    ∧ win0_1.index t (2 : Fin 4) = 0 ∧ win0_1.index t (3 : Fin 4) = 0 :=
  (by decide +kernel : ∀ t : Fin grid0.N, _)

/-- There are 32 points. -/
theorem lt32 (t : Fin cfg0.N) : t.val < 32 := lt_of_lt_of_eq t.isLt (show cfg0.N = 32 from N_0)

/-- Element `y` of point `t`'s input block is the array's element at slice `4 · (t % 16) + y 0` and height
    `28 · (t / 16) + y 1`: on each axis a block element sits at the block index times the block's size plus its own
    coordinate. -/
theorem iblk_apply (c : Dev nD) (t : Fin cfg0.N) (y : S4x28x56x256.Idx) :
    iblk m c 0 t y = V m c main_arg0 (ix4
      (⟨4 * (t.val % 16) + (y 0).val, by have := lt32 t; have hy : (y 0).val < 4 := (y 0).isLt; omega⟩ : Fin 64)
      (⟨28 * (t.val / 16) + (y 1).val, by have := lt32 t; have hy : (y 1).val < 28 := (y 1).isLt; omega⟩ : Fin 56)
      (y 2 : Fin 56) (y 3 : Fin 256)) := by
  show V m c main_arg0 (((cfg0.win 0).blk t).view.emb y) = _
  obtain ⟨e0, e1, e2, e3, -, -, -, -⟩ := idx_facts t
  congr 1
  funext a
  apply Fin.ext
  match a with
  | ⟨0, _⟩ => show win0_0.index t (0 : Fin 4) * 4 + 1 * (y 0).val = 4 * (t.val % 16) + (y 0).val; omega
  | ⟨1, _⟩ => show win0_0.index t (1 : Fin 4) * 28 + 1 * (y 1).val = 28 * (t.val / 16) + (y 1).val; omega
  | ⟨2, _⟩ => show win0_0.index t (2 : Fin 4) * 56 + 1 * (y 2).val = (y 2).val; omega
  | ⟨3, _⟩ => show win0_0.index t (3 : Fin 4) * 256 + 1 * (y 3).val = (y 3).val; omega

/-- Slice `k` of point `t`'s input block, at `(r, w, l)`: the array's slice `4 · (t % 16) + k` at height
    `28 · (t / 16) + r`. -/
theorem sliceOf_iblk (c : Dev nD) (t : Fin cfg0.N) (k : Fin 4) (r : Fin 28) (w : Fin 56) (l : Fin 256) :
    sliceOf (iblk m c 0 t) k (ix3 r w l) = V m c main_arg0 (ix4
      (⟨4 * (t.val % 16) + k.val, by have := lt32 t; have := k.isLt; omega⟩ : Fin 64)
      (⟨28 * (t.val / 16) + r.val, by have := lt32 t; have := r.isLt; omega⟩ : Fin 56) w l) := by
  show iblk m c 0 t (ix4 k r w l) = _
  rw [iblk_apply]

/-! ## B. The invariant -/

/-! ### What the two runs leave at a point, as the running maximum over the block's slices -/

/-- At a first block the carry ends at the maximum of the block's four slices, -/
theorem carry_firstAt (c : Dev nD) (t : Fin cfg0.N) (h0 : t.val % 16 = 0) :
    carryOf (runFirstAt m c t h0).2.1 = scan4 (sliceOf (iblk m c 0 t) 0) (iblk m c 0 t) 3 :=
  carry_first (F := Ideal) c (grid0.coords t) (inBuf t) (inBuf_whole t) (outBuf t) (outBuf_whole t) carryBuf
    (Memref.isWhole_whole _) ((isFirst_iff t).mpr h0) (fun h => (isLater_iff t).mp h h0) (iblk m c 0 t)

/-- and output slice `y 0` at the maximum of the slices up to it. -/
theorem out_firstAt (c : Dev nD) (t : Fin cfg0.N) (h0 : t.val % 16 = 0) (y : S4x28x56x256.Idx) :
    outOf (runFirstAt m c t h0).1 y
      = scan4 (sliceOf (iblk m c 0 t) 0) (iblk m c 0 t) (y 0 : Fin 4)
          (ix3 (y 1 : Fin 28) (y 2 : Fin 56) (y 3 : Fin 256) : S28x56x256.Idx) :=
  out_first (F := Ideal) c (grid0.coords t) (inBuf t) (inBuf_whole t) (outBuf t) (outBuf_whole t) carryBuf
    (Memref.isWhole_whole _) ((isFirst_iff t).mpr h0) (fun h => (isLater_iff t).mp h h0) (iblk m c 0 t) y

/-- At a later block the same, the scan seeded with the larger of the carry it was handed and the first slice. -/
theorem carry_laterAt (c : Dev nD) (t : Fin cfg0.N) (h0 : t.val % 16 ≠ 0) (xs0 : Vec Ideal S28x56x256 .f32) :
    carryOf (runLaterAt m c t h0 xs0).2.1
      = scan4 (maximumf xs0 (sliceOf (iblk m c 0 t) 0)) (iblk m c 0 t) 3 :=
  carry_later (F := Ideal) c (grid0.coords t) (inBuf t) (inBuf_whole t) (outBuf t) (outBuf_whole t) carryBuf
    (Memref.isWhole_whole _) (fun h => h0 ((isFirst_iff t).mp h)) ((isLater_iff t).mpr h0) (iblk m c 0 t) xs0

theorem out_laterAt (c : Dev nD) (t : Fin cfg0.N) (h0 : t.val % 16 ≠ 0) (xs0 : Vec Ideal S28x56x256 .f32)
    (y : S4x28x56x256.Idx) :
    outOf (runLaterAt m c t h0 xs0).1 y
      = scan4 (maximumf xs0 (sliceOf (iblk m c 0 t) 0)) (iblk m c 0 t) (y 0 : Fin 4)
          (ix3 (y 1 : Fin 28) (y 2 : Fin 56) (y 3 : Fin 256) : S28x56x256.Idx) :=
  out_later (F := Ideal) c (grid0.coords t) (inBuf t) (inBuf_whole t) (outBuf t) (outBuf_whole t) carryBuf
    (Memref.isWhole_whole _) (fun h => h0 ((isFirst_iff t).mp h)) ((isLater_iff t).mpr h0) (iblk m c 0 t) xs0 y

/-! ### The running maximum climbs a block's four slices -/

/-- The running maximum depends on the slice and the height only through their values (so two ways of writing the same
    number, each with its own bound proof, give the same value), -/
theorem cumMax_congr2 (X : SX.Idx → EReal) {b b' : Fin 64} {h h' : Fin 56} (e : b.val = b'.val) (e' : h.val = h'.val)
    (w : Fin 56) (l : Fin 256) : cumMax X b h w l = cumMax X b' h' w l := by
  rw [Fin.ext e, Fin.ext e']

/-- and likewise on all four coordinates. -/
theorem cumMax_congr4 (X : SX.Idx → EReal) {b b' : Fin 64} {h h' : Fin 56} {w w' : Fin 56} {l l' : Fin 256}
    (e0 : b.val = b'.val) (e1 : h.val = h'.val) (e2 : w.val = w'.val) (e3 : l.val = l'.val) :
    cumMax X b h w l = cumMax X b' h' w' l' := by
  rw [Fin.ext e0, Fin.ext e1, Fin.ext e2, Fin.ext e3]

/-- One step of the scan, read from right to left: the larger of the running maximum up to slice `B` and the entry of
    slice `B + 1` is the running maximum up to slice `B + 1`. -/
theorem cumMax_step (X : SX.Idx → EReal) (B : ℕ) (hB : B + 1 < 64) (h : Fin 56) (w : Fin 56) (l : Fin 256) :
    max (cumMax X ⟨B, by omega⟩ h w l) (X (ix4 ⟨B + 1, hB⟩ h w l)) = cumMax X ⟨B + 1, hB⟩ h w l :=
  (cumMax_succ X ⟨B, by omega⟩ hB h w l).symm

/-- Four slices `B, …, B + 3` of the array at one place `(R, w, l)`: if the seed is the running maximum up to slice `B`
    and slice `k` of the block is the array's slice `B + k`, then position `k` of the block's scan is the running maximum
    up to slice `B + k`. At the extended reals the elementwise maximum of two tiles is `max` at each index, so position
    `k` is the seed joined with the slices `1 … k`; `cumMax_step` absorbs them one at a time. -/
theorem scan4_eq_cumMax (X : SX.Idx → EReal) (B : ℕ) (hB : B + 3 < 64) (R : Fin 56) (w : Fin 56) (l : Fin 256)
    (a0 : Vec Ideal S28x56x256 .f32) (x0 : Vec Ideal S4x28x56x256 .f32) (j : S28x56x256.Idx)
    (h0 : a0 j = cumMax X ⟨B, by omega⟩ R w l)
    (hs : ∀ k : Fin 4, sliceOf x0 k j = X (ix4 ⟨B + k.val, by have := k.isLt; omega⟩ R w l))
    (k : Fin 4) : scan4 a0 x0 k j = cumMax X ⟨B + k.val, by have := k.isLt; omega⟩ R w l := by
  have s1 := hs 1
  have s2 := hs 2
  have s3 := hs 3
  match k with
  | ⟨0, _⟩ =>
    exact h0
  | ⟨1, _⟩ =>
    show max (a0 j) (sliceOf x0 1 j) = _
    rw [h0, s1]
    exact cumMax_step X B (by omega) R w l
  | ⟨2, _⟩ =>
    show max (max (a0 j) (sliceOf x0 1 j)) (sliceOf x0 2 j) = _
    rw [h0, s1, s2]
    rw [show max (cumMax X ⟨B, by omega⟩ R w l) (X (ix4 ⟨B + (1 : Fin 4).val, by omega⟩ R w l))
      = cumMax X ⟨B + 1, by omega⟩ R w l from cumMax_step X B (by omega) R w l]
    exact cumMax_step X (B + 1) (by omega) R w l
  | ⟨3, _⟩ =>
    show max (max (max (a0 j) (sliceOf x0 1 j)) (sliceOf x0 2 j)) (sliceOf x0 3 j) = _
    rw [h0, s1, s2, s3]
    rw [show max (cumMax X ⟨B, by omega⟩ R w l) (X (ix4 ⟨B + (1 : Fin 4).val, by omega⟩ R w l))
      = cumMax X ⟨B + 1, by omega⟩ R w l from cumMax_step X B (by omega) R w l]
    rw [show max (cumMax X ⟨B + 1, by omega⟩ R w l) (X (ix4 ⟨B + (2 : Fin 4).val, by omega⟩ R w l))
      = cumMax X ⟨B + 2, by omega⟩ R w l from cumMax_step X (B + 1) (by omega) R w l]
    exact cumMax_step X (B + 2) (by omega) R w l

/-- The same at point `t`'s block: seeded with the running maximum up to the block's first slice `4 · (t % 16)`,
    position `k` of the scan over the block is the running maximum up to slice `4 · (t % 16) + k`. -/
theorem block_eq (c : Dev nD) (t : Fin cfg0.N) (a0 : Vec Ideal S28x56x256 .f32)
    (ha : ∀ (r : Fin 28) (w : Fin 56) (l : Fin 256), a0 (ix3 r w l)
      = cumMax (V m c main_arg0) ⟨4 * (t.val % 16), by have := lt32 t; omega⟩
          ⟨28 * (t.val / 16) + r.val, by have := lt32 t; have := r.isLt; omega⟩ w l)
    (k : Fin 4) (r : Fin 28) (w : Fin 56) (l : Fin 256) :
    scan4 a0 (iblk m c 0 t) k (ix3 r w l)
      = cumMax (V m c main_arg0) ⟨4 * (t.val % 16) + k.val, by have := lt32 t; have := k.isLt; omega⟩
          ⟨28 * (t.val / 16) + r.val, by have := lt32 t; have := r.isLt; omega⟩ w l :=
  scan4_eq_cumMax (V m c main_arg0) (4 * (t.val % 16)) (by have := lt32 t; omega)
    ⟨28 * (t.val / 16) + r.val, by have := lt32 t; have := r.isLt; omega⟩ w l a0 (iblk m c 0 t) (ix3 r w l)
    (ha r w l) (fun k' => sliceOf_iblk m c t k' r w l) k

/-! ### The two kinds of point -/

/-- A first block (inner coordinate zero). Its first slice is the array's slice 0, where the running maximum is the
    entry itself; from that seed the block's scan is the running maximum. -/
theorem first_block (c : Dev nD) (t : Fin cfg0.N) (h0 : t.val % 16 = 0) :
    (∀ (r : Fin 28) (w : Fin 56) (l : Fin 256),
      carryOf (runFirstAt m c t h0).2.1 (ix3 r w l)
        = cumMax (V m c main_arg0) ⟨4 * (t.val % 16) + 3, by have := lt32 t; omega⟩
            ⟨28 * (t.val / 16) + r.val, by have := lt32 t; have := r.isLt; omega⟩ w l)
    ∧ (∀ y : S4x28x56x256.Idx,
      outOf (runFirstAt m c t h0).1 y
        = cumMax (V m c main_arg0)
            ⟨4 * (t.val % 16) + (y 0).val, by have := lt32 t; have hy : (y 0).val < 4 := (y 0).isLt; omega⟩
            ⟨28 * (t.val / 16) + (y 1).val, by have := lt32 t; have hy : (y 1).val < 28 := (y 1).isLt; omega⟩
            (y 2) (y 3)) := by
  have ha : ∀ (r : Fin 28) (w : Fin 56) (l : Fin 256), sliceOf (iblk m c 0 t) 0 (ix3 r w l)
      = cumMax (V m c main_arg0) ⟨4 * (t.val % 16), by have := lt32 t; omega⟩
          ⟨28 * (t.val / 16) + r.val, by have := lt32 t; have := r.isLt; omega⟩ w l := by
    intro r w l
    rw [sliceOf_iblk]
    have hz : (⟨4 * (t.val % 16), by have := lt32 t; omega⟩ : Fin 64) = 0 :=
      Fin.ext (by show 4 * (t.val % 16) = 0; omega)
    rw [hz, cumMax_zero]
    congr 1
    funext a
    match a with
    | ⟨0, _⟩ => exact Fin.ext (by show 4 * (t.val % 16) + (0 : Fin 4).val = 0; rw [h0]; rfl)
    | ⟨1, _⟩ => rfl
    | ⟨2, _⟩ => rfl
    | ⟨3, _⟩ => rfl
  constructor
  · intro r w l
    rw [carry_firstAt]
    exact block_eq m c t _ ha 3 r w l
  · intro y
    rw [out_firstAt]
    exact block_eq m c t _ ha (y 0) (y 1) (y 2) (y 3)

/-- A later block, handed the running maximum up to the slice `4 · (t % 16) - 1` just before its first. The seed, the
    larger of that carry and the block's first slice, is one step of the scan: the running maximum up to the block's
    first slice. -/
theorem later_block (c : Dev nD) (t : Fin cfg0.N) (h0 : t.val % 16 ≠ 0) (xs0 : Vec Ideal S28x56x256 .f32)
    (hxs : ∀ (r : Fin 28) (w : Fin 56) (l : Fin 256), xs0 (ix3 r w l)
      = cumMax (V m c main_arg0) ⟨4 * (t.val % 16) - 1, by have := lt32 t; omega⟩
          ⟨28 * (t.val / 16) + r.val, by have := lt32 t; have := r.isLt; omega⟩ w l) :
    (∀ (r : Fin 28) (w : Fin 56) (l : Fin 256),
      carryOf (runLaterAt m c t h0 xs0).2.1 (ix3 r w l)
        = cumMax (V m c main_arg0) ⟨4 * (t.val % 16) + 3, by have := lt32 t; omega⟩
            ⟨28 * (t.val / 16) + r.val, by have := lt32 t; have := r.isLt; omega⟩ w l)
    ∧ (∀ y : S4x28x56x256.Idx,
      outOf (runLaterAt m c t h0 xs0).1 y
        = cumMax (V m c main_arg0)
            ⟨4 * (t.val % 16) + (y 0).val, by have := lt32 t; have hy : (y 0).val < 4 := (y 0).isLt; omega⟩
            ⟨28 * (t.val / 16) + (y 1).val, by have := lt32 t; have hy : (y 1).val < 28 := (y 1).isLt; omega⟩
            (y 2) (y 3)) := by
  have ha : ∀ (r : Fin 28) (w : Fin 56) (l : Fin 256), maximumf xs0 (sliceOf (iblk m c 0 t) 0) (ix3 r w l)
      = cumMax (V m c main_arg0) ⟨4 * (t.val % 16), by have := lt32 t; omega⟩
          ⟨28 * (t.val / 16) + r.val, by have := lt32 t; have := r.isLt; omega⟩ w l := by
    intro r w l
    show max (xs0 (ix3 r w l)) (sliceOf (iblk m c 0 t) 0 (ix3 r w l)) = _
    rw [hxs, sliceOf_iblk]
    have hB : 4 * (t.val % 16) - 1 + 1 < 64 := by have := lt32 t; omega
    have step := cumMax_step (V m c main_arg0) (4 * (t.val % 16) - 1) hB
      ⟨28 * (t.val / 16) + r.val, by have := lt32 t; have := r.isLt; omega⟩ w l
    -- `step` is the goal with the block's first slice written `4 · (t % 16) - 1 + 1`
    refine Eq.trans ?_ (step.trans
      (cumMax_congr2 _ (by show 4 * (t.val % 16) - 1 + 1 = 4 * (t.val % 16); omega) rfl w l))
    congr 2
    funext a
    match a with
    | ⟨0, _⟩ =>
      exact Fin.ext (by
        show 4 * (t.val % 16) + (0 : Fin 4).val = 4 * (t.val % 16) - 1 + 1
        show 4 * (t.val % 16) + 0 = _
        omega)
    | ⟨1, _⟩ => rfl
    | ⟨2, _⟩ => rfl
    | ⟨3, _⟩ => rfl
  constructor
  · intro r w l
    rw [carry_laterAt]
    exact block_eq m c t _ ha 3 r w l
  · intro y
    rw [out_laterAt]
    exact block_eq m c t _ ha (y 0) (y 1) (y 2) (y 3)

/-! ### Every point -/

/-- THE INVARIANT. After point `t` the carry holds the running maximum up to the block's last slice `4 · (t % 16) + 3`
    (at the tile's heights), and element `y` of the output block the running maximum up to slice `4 · (t % 16) + y 0`.

    By strong induction on the point's number. A first block needs no hypothesis. A later block `t` was handed the carry
    of point `t - 1`, which lies in the same tile (`(t - 1) / 16 = t / 16` because `t % 16 ≠ 0`) one block earlier
    (`(t - 1) % 16 = t % 16 - 1`); its last slice `4 · (t % 16 - 1) + 3` is the slice `4 · (t % 16) - 1` just before
    this block's first. -/
theorem left_eq (c : Dev nD) : ∀ (n : ℕ) (t : Fin cfg0.N), t.val = n →
    (∀ (r : Fin 28) (w : Fin 56) (l : Fin 256),
      (leftAt m c t.val t.isLt).2 (ix3 r w l)
        = cumMax (V m c main_arg0) ⟨4 * (t.val % 16) + 3, by have := lt32 t; omega⟩
            ⟨28 * (t.val / 16) + r.val, by have := lt32 t; have := r.isLt; omega⟩ w l)
    ∧ (∀ y : S4x28x56x256.Idx,
      (leftAt m c t.val t.isLt).1 y
        = cumMax (V m c main_arg0)
            ⟨4 * (t.val % 16) + (y 0).val, by have := lt32 t; have hy : (y 0).val < 4 := (y 0).isLt; omega⟩
            ⟨28 * (t.val / 16) + (y 1).val, by have := lt32 t; have hy : (y 1).val < 28 := (y 1).isLt; omega⟩
            (y 2) (y 3)) := by
  intro n
  induction n using Nat.strong_induction_on with
  | _ n ih =>
    intro t ht
    have hn32 := lt32 t
    by_cases h0 : t.val % 16 = 0
    · rw [leftAt_first m c t h0]
      dsimp only
      exact first_block m c t h0
    · rw [leftAt_later m c t h0]
      dsimp only
      have hprev := (ih (t.val - 1) (by omega) ⟨t.val - 1, Nat.lt_of_le_of_lt (Nat.sub_le _ _) t.isLt⟩ rfl).1
      refine later_block m c t h0 _ (fun r w l => (hprev r w l).trans ?_)
      apply cumMax_congr2
      · show 4 * ((t.val - 1) % 16) + 3 = 4 * (t.val % 16) - 1
        omega
      · show 28 * ((t.val - 1) / 16) + r.val = 28 * (t.val / 16) + r.val
        omega

/-- The invariant's second half at a point: the output block. -/
theorem left_out (c : Dev nD) (t : Fin cfg0.N) (y : S4x28x56x256.Idx) :
    (leftAt m c t.val t.isLt).1 y
      = cumMax (V m c main_arg0)
          ⟨4 * (t.val % 16) + (y 0).val, by have := lt32 t; have hy : (y 0).val < 4 := (y 0).isLt; omega⟩
          ⟨28 * (t.val / 16) + (y 1).val, by have := lt32 t; have hy : (y 1).val < 28 := (y 1).isLt; omega⟩
          (y 2) (y 3) :=
  (left_eq m c t.val t rfl).2 y

/-! ## C. What a point writes back -/

/-- Point `t` writes back its block of the running-maximum array: element `y` of the output block is the running
    maximum at slice `4 · (t % 16) + y 0` and height `28 · (t / 16) + y 1` (step B), which is where the output
    window's block places `y` in the array (the index map, as in step A). -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after_out]
  funext y
  show (leftAt m c t.val t.isLt).1 y = G (V m c main_arg0) (((cfg0.win 1).blk t).view.emb y)
  rw [left_out]
  obtain ⟨-, -, -, -, e0, e1, e2, e3⟩ := idx_facts t
  unfold G
  apply cumMax_congr4
  · show 4 * (t.val % 16) + (y 0).val = win0_1.index t (0 : Fin 4) * 4 + 1 * (y 0).val; omega
  · show 28 * (t.val / 16) + (y 1).val = win0_1.index t (1 : Fin 4) * 28 + 1 * (y 1).val; omega
  · show (y 2).val = win0_1.index t (2 : Fin 4) * 56 + 1 * (y 2).val; omega
  · show (y 3).val = win0_1.index t (3 : Fin 4) * 256 + 1 * (y 3).val; omega

/-! ## D. The output's blocks cover the array -/

/-- An index of the array is in point `t`'s output block iff each coordinate is in the block's range on its axis. -/
theorem mem_blk (t : Fin cfg0.N) (i : S64x56x56x256.Idx) :
    i ∈ ((cfg0.win 1).blk t).view.set ↔ ∀ a : Fin 4, win0_1.index t a * S4x28x56x256.size a ≤ (i a).val
      ∧ (i a).val < win0_1.index t a * S4x28x56x256.size a + S4x28x56x256.size a := by
  show i ∈ ((View.whole main_v0).slice (win0_1.rect t)).set ↔ _
  rw [View.set_slice_whole, Rect.mem_set_unit]
  exact Iff.rfl

/-- Every index `i` lies in the output block of the point `16 · (i 1 / 28) + i 0 / 4`: its inner coordinate is
    `i 0 / 4` (below 16), its outer one `i 1 / 28` (below 2), and `4 · (i 0 / 4) ≤ i 0 < 4 · (i 0 / 4) + 4`, likewise
    for the height; the last two axes are spanned whole. Every point writes its block back. -/
theorem cover (i : S64x56x56x256.Idx) :
    ∃ t : Fin cfg0.N, (cfg0.win 1).flush t = true ∧ i ∈ ((cfg0.win 1).blk t).view.set := by
  have hi0 : (i 0).val < 64 := (i 0).isLt
  have hi1 : (i 1).val < 56 := (i 1).isLt
  have hi2 : (i 2).val < 56 := (i 2).isLt
  have hi3 : (i 3).val < 256 := (i 3).isLt
  have hN : cfg0.N = 32 := N_0
  refine ⟨⟨16 * ((i 1).val / 28) + (i 0).val / 4, by omega⟩, flush0_1 _, ?_⟩
  rw [mem_blk]
  obtain ⟨-, -, -, -, e0, e1, e2, e3⟩ := idx_facts ⟨16 * ((i 1).val / 28) + (i 0).val / 4, by omega⟩
  change win0_1.index _ (0 : Fin 4) = (16 * ((i 1).val / 28) + (i 0).val / 4) % 16 at e0
  change win0_1.index _ (1 : Fin 4) = (16 * ((i 1).val / 28) + (i 0).val / 4) / 16 at e1
  intro a
  match a with
  | ⟨0, _⟩ =>
    show win0_1.index _ (0 : Fin 4) * 4 ≤ (i 0).val ∧ (i 0).val < win0_1.index _ (0 : Fin 4) * 4 + 4
    omega
  | ⟨1, _⟩ =>
    show win0_1.index _ (1 : Fin 4) * 28 ≤ (i 1).val ∧ (i 1).val < win0_1.index _ (1 : Fin 4) * 28 + 28
    omega
  | ⟨2, _⟩ =>
    show win0_1.index _ (2 : Fin 4) * 56 ≤ (i 2).val ∧ (i 2).val < win0_1.index _ (2 : Fin 4) * 56 + 56
    omega
  | ⟨3, _⟩ =>
    show win0_1.index _ (3 : Fin 4) * 256 ≤ (i 3).val ∧ (i 3).val < win0_1.index _ (3 : Fin 4) * 256 + 256
    omega

/-- THE RESULT ARRAY after the run is the running maximum of the argument array: every point writes back its block of
    it (step C) and the blocks cover the array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-! ## E. The kernel's run, read -/

/-- Every weakly fair execution of the kernel terminates with the result array at the running maximum of the argument
    array, and the argument array unchanged. -/
theorem run : θ_run defs (onTc (τ := τ) (main (F := Ideal))) ⟨m, fun _ => 0, ρ⟩ fun r => ∀ c : Dev nD,
      r.2.mem ((c.tc : Thread nD τ).loc main_v0) = G (m ((c.tc : Thread nD τ).loc main_arg0))
      ∧ r.2.mem ((c.tc : Thread nD τ).loc main_arg0) = m ((c.tc : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.ScanValue

end
-- ==== Proof.RefSide.lean ====
/-
  The reference program, read index by index over the extended reals, is the running maximum along the leading axis.

  The program is three operations on an array x of shape [64, 56, 56, 256]: swap the last two axes, take a windowed
  maximum along the leading axis, swap the last two axes back. The windowed maximum is what carries the content. Its
  window has 64 positions along axis 0 (and one along every other axis), it advances by one, and the operand is padded
  with 63 copies of the initial value -∞ in front. So the window that produces row b covers the padded rows
  b, b + 1, …, b + 63, that is the original rows b - 63, …, b, of which the ones below 0 are padding. Its maximum is
  therefore the maximum of -∞ and of x (b', ·, ·, ·) over 0 ≤ b' ≤ b: the running maximum.

  The proof follows that sentence in four steps, each a small lemma:
    1. a left fold of `max` over a list is the supremum over the list's elements (and the starting value);
    2. the supremum over the 64 window positions n of "x at row b + n - 63 if 63 ≤ b + n, else -∞" is the supremum of x
       over the rows b' ≤ b (re-index by b' = b + n - 63, n = 63 - b + b');
    3. the n-th position of a 64 × 1 × 1 × 1 window, in row-major order, is (n, 0, 0, 0), and the initial value's bit
       pattern denotes -∞, so the windowed maximum's definition reads as the expression in step 2;
    4. the two swaps of the last two axes cancel.
-/
import proofs.«106476_j6837587935356_2_alg».proof.Proof.Gen.ReferenceIdeal.Read
import proofs.«106476_j6837587935356_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## Step 1: a left fold of `max` is a supremum -/

/-- Folding `max` from the left over a list, starting at `init`, gives the larger of `init` and the supremum of the
    folded values: by induction on the list, the head joining the starting value at each step
    (`(init ⊔ g a) ⊔ sup l = init ⊔ (g a ⊔ sup l)` is associativity). -/
theorem foldl_max_eq_sup {ι : Type} [DecidableEq ι] (g : ι → EReal) (l : List ι) (init : EReal) :
    l.foldl (fun r k => max r (g k)) init = init ⊔ l.toFinset.sup g := by
  induction l generalizing init with
  | nil => rw [List.foldl_nil, List.toFinset_nil, Finset.sup_empty, sup_bot_eq]
  | cons a l ih => rw [List.foldl_cons, ih, List.toFinset_cons, Finset.sup_insert, sup_assoc]

/-! ## Step 2: the supremum over the window is the supremum over the rows up to `b` -/

/-- Window position `n` of the window for row `b` looks at row `b + n - 63` of the operand when `63 ≤ b + n`, and at
    padding (`-∞`, the bottom element) otherwise. As `n` runs over the 64 positions, `b + n - 63` runs exactly over
    the rows `0, …, b`, so the two suprema have the same terms apart from copies of `⊥`.

    Each inequality is shown term by term. A window term is either `⊥` or the row `b + n - 63 ≤ b` of the right-hand
    side. A row `b' ≤ b` is the window term at position `n = 63 - b + b'`, which is below 64 because `b' ≤ b`.

    The number of positions is a parameter `N` with a proof that it is 64, because the window shape's number of
    elements is 64 by computation, not by syntax. -/
theorem sup_window_eq_sup_Iic {N : ℕ} (hN : N = 64) (f : Fin 64 → EReal) (b : Fin 64) :
    (Finset.univ : Finset (Fin N)).sup
        (fun n => if h : 63 ≤ b.val + n.val then f ⟨b.val + n.val - 63, by have := n.isLt; omega⟩ else ⊥)
      = (Finset.Iic b).sup f := by
  subst hN
  apply le_antisymm
  · -- every window term is below the supremum over the rows up to `b`
    apply Finset.sup_le
    intro n _
    by_cases h : 63 ≤ b.val + n.val
    · rw [dif_pos h]
      apply Finset.le_sup (f := f)
      rw [Finset.mem_Iic, Fin.le_def]
      show b.val + n.val - 63 ≤ b.val
      have := n.isLt; omega
    · rw [dif_neg h]; exact bot_le
  · -- every row `b' ≤ b` is the window term at position `63 - b + b'`
    apply Finset.sup_le
    intro b' hb'
    rw [Finset.mem_Iic, Fin.le_def] at hb'
    have hb := b.isLt
    have hle := Finset.le_sup
      (f := fun n : Fin 64 =>
        if h : 63 ≤ b.val + n.val then f ⟨b.val + n.val - 63, by have := n.isLt; omega⟩ else ⊥)
      (Finset.mem_univ (⟨63 - b.val + b'.val, by omega⟩ : Fin 64))
    refine le_trans (le_of_eq ?_) hle
    have h : 63 ≤ b.val + (63 - b.val + b'.val) := by omega
    show f b' = if h : 63 ≤ b.val + (63 - b.val + b'.val) then f ⟨b.val + (63 - b.val + b'.val) - 63, _⟩ else ⊥
    rw [dif_pos h]
    congr 1
    apply Fin.ext
    show b'.val = b.val + (63 - b.val + b'.val) - 63
    omega

/-! ## Step 3: the windowed maximum, read at an index -/

/-- The window: 64 positions along the leading axis, one along each of the others. -/
abbrev Window : Shape := ⟨4, ![64, 1, 1, 1]⟩

/-- The window has 64 positions. -/
theorem window_numel : Window.numel = 64 := by decide

/-- A position's number is below 64. -/
theorem window_lt (n : Fin Window.numel) : n.val < 64 := lt_of_lt_of_eq n.isLt window_numel

/-- On an axis of size one the only coordinate is 0: axis 1 … -/
theorem window_symm_1 (n : Fin Window.numel) : (Window.rowMajor.symm n 1).val = 0 := by
  have h : (Window.rowMajor.symm n 1).val < 1 := (Window.rowMajor.symm n 1).isLt
  omega
/-- … axis 2 … -/
theorem window_symm_2 (n : Fin Window.numel) : (Window.rowMajor.symm n 2).val = 0 := by
  have h : (Window.rowMajor.symm n 2).val < 1 := (Window.rowMajor.symm n 2).isLt
  omega
/-- … and axis 3. -/
theorem window_symm_3 (n : Fin Window.numel) : (Window.rowMajor.symm n 3).val = 0 := by
  have h : (Window.rowMajor.symm n 3).val < 1 := (Window.rowMajor.symm n 3).isLt
  omega

/-- The `n`-th position of the window in row-major order has leading coordinate `n`: the row-major number of
    `(a, b, c, d)` in a 64 × 1 × 1 × 1 box is `((a · 1 + b) · 1 + c) · 1 + d`, and `b = c = d = 0`. -/
theorem window_symm_0 (n : Fin Window.numel) : (Window.rowMajor.symm n 0).val = n.val := by
  have h := Shape.rowMajor_val_four (d := ![64, 1, 1, 1]) (Window.rowMajor.symm n)
  rw [Equiv.apply_symm_apply] at h
  change n.val = (((Window.rowMajor.symm n 0).val * 1 + (Window.rowMajor.symm n 1).val) * 1
    + (Window.rowMajor.symm n 2).val) * 1 + (Window.rowMajor.symm n 3).val at h
  have h1 := window_symm_1 n
  have h2 := window_symm_2 n
  have h3 := window_symm_3 n
  omega

/-- The initial value of the windowed maximum is `-∞`: the word `0xFF800000` has sign bit 1, all eight exponent bits
    set and a zero fraction, the pattern of the negative infinity, which is the bottom of the extended reals. -/
theorem init_eq_bot (k : S_.Idx) : val_main_call0_v0 (F := Ideal) k = ⊥ := by
  rw [val_main_call0_v0_apply, val_main_call0_cst_apply]
  show Ideal.ofBits .f32 0xFF800000#32 = ⊥
  simp [Ideal.ofBits, Ideal.ieee]

/-- The windowed maximum at index `j`, for any operand `y` and initial value: the larger of the initial value and the
    supremum, over the 64 window positions `n`, of `y` at row `j 0 + n - 63` (the other coordinates `j`'s) when
    `63 ≤ j 0 + n`, and of the initial value otherwise.

    The definition is a left fold of `max` over the positions, so step 1 turns it into a supremum. What is left is to
    read one position. Position `n` is `(n, 0, 0, 0)`; with stride 1 the padded coordinate on each axis is
    `j a · 1 + (position) a`, that is `j 0 + n` on axis 0 and `j a` on the others; the low padding is `(63, 0, 0, 0)`.
    "Inside the operand on every axis" is then `63 ≤ j 0 + n` and `j 0 + n - 63 < 64` on axis 0, and `j a < size a` on
    the others, all of which hold as soon as `63 ≤ j 0 + n` (because `j 0 ≤ 63` and `n ≤ 63`). The four cases of the two
    conditions: both hold and the indices agree coordinate by coordinate; one holds without the other, impossible by the
    arithmetic just said; neither holds and both sides are the initial value. -/
theorem reduceWindow_read (y : S64x56x256x56.Idx → EReal) (init : S_.Idx → EReal) (j : S64x56x256x56.Idx) :
    Host.reduceWindow (FloatOps.maximumf (F := Ideal) (φ := .f32)) ![64, 1, 1, 1] ![1, 1, 1, 1] ![63, 0, 0, 0] ![0, 0, 0, 0] y init
        reduceWindows_S64x56x256x56_S64x56x256x56_w64s1p63_0_w1s1p0_0_w1s1p0_0_w1s1p0_0 h_S_ j
      = init (Shape.Idx.first h_S_) ⊔ (Finset.univ : Finset (Fin Window.numel)).sup (fun n =>
          if h : 63 ≤ (j 0).val + n.val then
            y (ix4 ⟨(j 0).val + n.val - 63, by
              have hn := window_lt n; have hj : (j 0).val < 64 := (j 0).isLt; omega⟩ (j 1) (j 2) (j 3))
          else init (Shape.Idx.first h_S_)) := by
  unfold Host.reduceWindow
  simp only []
  -- at the extended reals the float maximum is `max`, so the fold is the one of step 1
  refine (foldl_max_eq_sup _ _ _).trans ?_
  rw [List.toFinset_finRange]
  congr 1
  apply Finset.sup_congr rfl
  intro n _
  have hj0 : (j 0).val < 64 := (j 0).isLt
  have hj1 : (j 1).val < 56 := (j 1).isLt
  have hj2 : (j 2).val < 256 := (j 2).isLt
  have hj3 : (j 3).val < 56 := (j 3).isLt
  have hn := window_lt n
  have w0 := window_symm_0 n
  have w1 := window_symm_1 n
  have w2 := window_symm_2 n
  have w3 := window_symm_3 n
  split_ifs with hin h h
  · -- inside on every axis, and `63 ≤ j 0 + n`: the two indices have the same coordinates
    congr 1
    funext a
    apply Fin.ext
    match a with
    | ⟨0, _⟩ => show (j 0).val * 1 + (Window.rowMajor.symm n 0).val - 63 = (j 0).val + n.val - 63; omega
    | ⟨1, _⟩ => show (j 1).val * 1 + (Window.rowMajor.symm n 1).val - 0 = (j 1).val; omega
    | ⟨2, _⟩ => show (j 2).val * 1 + (Window.rowMajor.symm n 2).val - 0 = (j 2).val; omega
    | ⟨3, _⟩ => show (j 3).val * 1 + (Window.rowMajor.symm n 3).val - 0 = (j 3).val; omega
  · -- inside on axis 0 says `63 ≤ j 0 · 1 + n`
    exfalso
    have h0 := (hin 0).1
    change 63 ≤ (j 0).val * 1 + (Window.rowMajor.symm n 0).val at h0
    omega
  · -- `63 ≤ j 0 + n` puts the position inside on every axis
    exfalso
    apply hin
    intro a
    match a with
    | ⟨0, _⟩ =>
      show 63 ≤ (j 0).val * 1 + (Window.rowMajor.symm n 0).val
        ∧ (j 0).val * 1 + (Window.rowMajor.symm n 0).val - 63 < 64
      omega
    | ⟨1, _⟩ =>
      show 0 ≤ (j 1).val * 1 + (Window.rowMajor.symm n 1).val
        ∧ (j 1).val * 1 + (Window.rowMajor.symm n 1).val - 0 < 56
      omega
    | ⟨2, _⟩ =>
      show 0 ≤ (j 2).val * 1 + (Window.rowMajor.symm n 2).val
        ∧ (j 2).val * 1 + (Window.rowMajor.symm n 2).val - 0 < 256
      omega
    | ⟨3, _⟩ =>
      show 0 ≤ (j 3).val * 1 + (Window.rowMajor.symm n 3).val
        ∧ (j 3).val * 1 + (Window.rowMajor.symm n 3).val - 0 < 56
      omega
  · rfl

/-! ## Step 4: the whole program -/

/-- The reference program's result at the extended reals is the running maximum along the leading axis.

    At index `i = (b, h, w, c)` the last operation reads the windowed maximum at `(b, h, c, w)`. By step 3, with the
    initial value `-∞ = ⊥`, that is the supremum over the window positions `n` of the first swap's result at
    `(b + n - 63, h, c, w)` when `63 ≤ b + n`, else `⊥`; and the first swap's result there is `x (b + n - 63, h, w, c)`:
    the two swaps cancel. Step 2 then identifies the supremum with the one over the rows `b' ≤ b`. -/
theorem ref_is_cumMax (x : Cert.CumMax.SX.Idx → EReal) :
    Cert.ReferenceIdeal.Read.val_main_v2 (F := Ideal) x = Cert.CumMax.G x := by
  funext i
  rw [val_main_v2_apply]
  unfold val_main_v1
  rw [reduceWindow_read, init_eq_bot, bot_sup_eq]
  unfold Cert.CumMax.G Cert.CumMax.cumMax
  refine Eq.trans ?_ (sup_window_eq_sup_Iic window_numel (fun b' => x (ix4 b' (i 1) (i 2) (i 3))) (i 0))
  apply Finset.sup_congr rfl
  intro n _
  by_cases h : 63 ≤ (i 0).val + n.val
  · rw [dif_pos h, dif_pos (show 63 ≤ (idx_main_v2 i 0).val + n.val from h), val_main_v0_apply]
    -- the index read by the first swap, coordinate by coordinate: axes 2 and 3 are swapped twice
    congr 1
    funext a
    match a with
    | ⟨0, _⟩ => rfl
    | ⟨1, _⟩ => rfl
    | ⟨2, _⟩ => rfl
    | ⟨3, _⟩ => rfl
  · rw [dif_neg h, dif_neg (show ¬ 63 ≤ (idx_main_v2 i 0).val + n.val from h)]

end Cert.ReferenceIdeal.RefValue

end
-- ==== Proof.lean ====
/-
  The claim: a kernel that scans a [64, 56, 56, 256] array along its leading axis, keeping a running maximum, computes
  the same array as the reference's windowed maximum between two transposes — and both programs, and the kernel as
  printed, run to the end leaving the argument unchanged.

  The kernel walks a 2 × 16 grid: for each of two tiles of 28 rows of the height axis, sixteen blocks of four consecutive
  slices of the leading axis, in order. A carry buffer holds the running maximum up to the previous slice; the first block
  of a tile seeds it from its first slice, every other block folds it in. So after the block with inner coordinate `bi`
  the carry is the maximum over slices `0 … 4·bi + 3`, and output slice `4·bi + k` is the maximum over slices
  `0 … 4·bi + k` (Proof/ScanValue.lean, by induction on the grid point over the tiles read in Proof/ScanPieces.lean).
  The reference pads 63 slices of `-∞` in front of the (transposed) array and takes the maximum of each window of 64
  slices: the window ending at slice `b` holds exactly slices `0 … b` and padding, and `-∞` is the maximum's neutral
  element; the two transposes swap the last two axes there and back (Proof/RefSide.lean). Both are the function
  `Cert.CumMax.G` of Proof/Spec.lean. The maximum of extended reals is exact, associative and commutative, so no
  finiteness of the input is used.

  The frames: the reference's is its run with the result dropped; the kernel's, at the word-level instance and at the
  ideal one, is the run of its body at every grid point under an invariant that names the carry buffer's contents from
  the second point on (Proof/ScanFrameBits.lean, Proof/ScanFrameIdeal.lean: the same text at the two instances). The ideal
  pass rewrote nothing, so the kernel's idealization is its own text read at the ideal instance.
-/
import proofs.«106476_j6837587935356_2_alg».proof.Defs
import proofs.«106476_j6837587935356_2_alg».proof.Proof.Gen.Kernel
import proofs.«106476_j6837587935356_2_alg».proof.Proof.Gen.KernelIdeal
import proofs.«106476_j6837587935356_2_alg».proof.Proof.Gen.ReferenceIdeal
import proofs.«106476_j6837587935356_2_alg».proof.Proof.Gen.Pre_finite_inputs
import proofs.«106476_j6837587935356_2_alg».proof.Proof.Gen.ReferenceIdeal.Run
import proofs.«106476_j6837587935356_2_alg».proof.Proof.Gen.ReferenceIdeal.Read
import proofs.«106476_j6837587935356_2_alg».proof.Proof.ScanFrameBits
import proofs.«106476_j6837587935356_2_alg».proof.Proof.ScanFrameIdeal
import proofs.«106476_j6837587935356_2_alg».proof.Proof.ScanValue
import proofs.«106476_j6837587935356_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end and leaves its argument unchanged. -/
theorem frame_kernel : Cert.frame_Kernel := fun m ρ _ => Cert.Kernel.Scan.frame m ρ

/-- So does the kernel read at the ideal instance. -/
theorem frame_ideal : Cert.frame_KernelIdeal := fun m ρ _ => Cert.KernelIdeal.Scan.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the ideal pass: nothing to preserve. -/
theorem preserves : Cert.preserves_Kernel_KernelIdeal := trivial

/-- From memories agreeing on the argument, both programs end with the running maximum of the argument along its leading
    axis: the kernel's result array by the scan's invariant, the reference's by reading its windowed maximum. -/
theorem algebraic : Cert.algebraic_KernelIdeal_ReferenceIdeal := by
  intro m ρ m' ρ' _ hagree
  refine ⟨fun c => Cert.CumMax.G (m ((c.tc : Thread Cert.KernelIdeal.nD Cert.KernelIdeal.τ).loc Cert.KernelIdeal.main_arg0)),
    Cert.KernelIdeal.ScanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, hagree c]
  exact Cert.ReferenceIdeal.RefValue.ref_is_cumMax _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
